-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x11 : Shape := ⟨3, ![8, 10000, 11]⟩
abbrev S2x320000 : Shape := ⟨2, ![2, 320000]⟩
abbrev S32x11 : Shape := ⟨2, ![32, 11]⟩
abbrev S32 : Shape := ⟨1, ![32]⟩
abbrev S32x32 : Shape := ⟨2, ![32, 32]⟩
abbrev S32x64 : Shape := ⟨2, ![32, 64]⟩
abbrev S1x32 : Shape := ⟨2, ![1, 32]⟩
abbrev S1 : Shape := ⟨1, ![1]⟩
abbrev S1x1 : Shape := ⟨2, ![1, 1]⟩
abbrev S1x10000 : Shape := ⟨2, ![1, 10000]⟩
abbrev S_ : Shape := ⟨0, ![]⟩

class Facts : Prop where
  bcast_S_S8x10000x11 : S_.BroadcastsInDim S8x10000x11 (![] : Fin 0 → Fin S8x10000x11.rank)
  reducesTo_S8x10000x11_S_d0_1_2 : S8x10000x11.ReducesTo [0, 1, 2] S_
  h_S_ : 0 < S_.numel
  bcast_S_S32x11 : S_.BroadcastsInDim S32x11 (![] : Fin 0 → Fin S32x11.rank)
  reducesTo_S32x11_S_d0_1 : S32x11.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_
  bcast_S_S1x10000 : S_.BroadcastsInDim S1x10000 (![] : Fin 0 → Fin S1x10000.rank)
  reducesTo_S1x10000_S_d0_1 : S1x10000.ReducesTo [0, 1] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S1x1 .f32) (main_arg13 : FVec F S1 .f32) (main_arg14 : FVec F S1x10000 .f32) (main_arg15 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x1 .f32 := Host.absf main_arg12
  let main_cst_20 : FVec F S_ .f32 := constant S_ .f32 0x7F800000#32
  let main_v55 : FVec F S1x1 .f32 := broadcastInDim S1x1 ![] bcast_S_S1x1 main_cst_20
  let main_v56 : IVec S1x1 1 := cmpf .olt main_v54 main_v55
  let main_c_21 : IVec S_ 1 := constantI S_ 1 1#1
  let main_v57 : IVec S_ 1 := (fun x v => Host.reduce IntOp.andi x v reducesTo_S1x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1x10000 .f32 := Host.absf main_arg14
  let main_cst_24 : FVec F S_ .f32 := constant S_ .f32 0x7F800000#32
  let main_v65 : FVec F S1x10000 .f32 := broadcastInDim S1x10000 ![] bcast_S_S1x10000 main_cst_24
  let main_v66 : IVec S1x10000 1 := cmpf .olt main_v64 main_v65
  let main_c_25 : IVec S_ 1 := constantI S_ 1 1#1
  let main_v67 : IVec S_ 1 := (fun x v => Host.reduce IntOp.andi x v reducesTo_S1x10000_S_d0_1 h_S_) main_v66 main_c_25
  fn_part4 (F := F) main_arg15 main_v63 main_v67

def fn_part2 {F : FTy → Type} [FloatOps F] (main_arg8 : FVec F S32x32 .f32) (main_arg9 : FVec F S32 .f32) (main_arg10 : FVec F S1x32 .f32) (main_arg11 : FVec F S1 .f32) (main_arg12 : FVec F S1x1 .f32) (main_arg13 : FVec F S1 .f32) (main_arg14 : FVec F S1x10000 .f32) (main_arg15 : FVec F S1 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S1x32 .f32 := Host.absf main_arg10
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_v48 main_v49 main_v50

def fn_part1 {F : FTy → Type} [FloatOps F] (main_arg5 : FVec F S32 .f32) (main_arg6 : FVec F S32x64 .f32) (main_arg7 : FVec F S32 .f32) (main_arg8 : FVec F S32x32 .f32) (main_arg9 : FVec F S32 .f32) (main_arg10 : FVec F S1x32 .f32) (main_arg11 : FVec F S1 .f32) (main_arg12 : FVec F S1x1 .f32) (main_arg13 : FVec F S1 .f32) (main_arg14 : FVec F S1x10000 .f32) (main_arg15 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S8x10000x11 .f32) (main_arg1 : IVec S2x320000 32) (main_arg2 : FVec F S32x11 .f32) (main_arg3 : FVec F S32 .f32) (main_arg4 : FVec F S32x32 .f32) (main_arg5 : FVec F S32 .f32) (main_arg6 : FVec F S32x64 .f32) (main_arg7 : FVec F S32 .f32) (main_arg8 : FVec F S32x32 .f32) (main_arg9 : FVec F S32 .f32) (main_arg10 : FVec F S1x32 .f32) (main_arg11 : FVec F S1 .f32) (main_arg12 : FVec F S1x1 .f32) (main_arg13 : FVec F S1 .f32) (main_arg14 : FVec F S1x10000 .f32) (main_arg15 : FVec F S1 .f32) : IVec S_ 1 :=
  let main_v0 : FVec F S8x10000x11 .f32 := Host.absf main_arg0
  let main_cst : FVec F S_ .f32 := constant S_ .f32 0x7F800000#32
  let main_v1 : FVec F S8x10000x11 .f32 := broadcastInDim S8x10000x11 ![] bcast_S_S8x10000x11 main_cst
  let main_v2 : IVec S8x10000x11 1 := cmpf .olt main_v0 main_v1
  let main_c : IVec S_ 1 := constantI S_ 1 1#1
  let main_v3 : IVec S_ 1 := (fun x v => Host.reduce IntOp.andi x v reducesTo_S8x10000x11_S_d0_1_2 h_S_) main_v2 main_c
  let main_v4 : FVec F S32x11 .f32 := Host.absf main_arg2
  let main_cst_0 : FVec F S_ .f32 := constant S_ .f32 0x7F800000#32
  let main_v5 : FVec F S32x11 .f32 := broadcastInDim S32x11 ![] bcast_S_S32x11 main_cst_0
  let main_v6 : IVec S32x11 1 := cmpf .olt main_v4 main_v5
  let main_c_1 : IVec S_ 1 := constantI S_ 1 1#1
  let main_v7 : IVec S_ 1 := (fun x v => Host.reduce IntOp.andi x v reducesTo_S32x11_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S8x10000x11 : Shape := ⟨3, ![8, 10000, 11]⟩
abbrev S2x320000 : Shape := ⟨2, ![2, 320000]⟩
abbrev S32x11 : Shape := ⟨2, ![32, 11]⟩
abbrev S32 : Shape := ⟨1, ![32]⟩
abbrev S32x32 : Shape := ⟨2, ![32, 32]⟩
abbrev S32x64 : Shape := ⟨2, ![32, 64]⟩
abbrev S1x32 : Shape := ⟨2, ![1, 32]⟩
abbrev S1 : Shape := ⟨1, ![1]⟩
abbrev S1x1 : Shape := ⟨2, ![1, 1]⟩
abbrev S1x10000 : Shape := ⟨2, ![1, 10000]⟩
abbrev S11x32 : Shape := ⟨2, ![11, 32]⟩
abbrev S32x1 : Shape := ⟨2, ![32, 1]⟩
abbrev S8x10000x32 : Shape := ⟨3, ![8, 10000, 32]⟩
abbrev S1x10000x11 : Shape := ⟨3, ![1, 10000, 11]⟩
abbrev S1x10000x32 : Shape := ⟨3, ![1, 10000, 32]⟩
abbrev S10000x11 : Shape := ⟨2, ![10000, 11]⟩
abbrev S10000x32 : Shape := ⟨2, ![10000, 32]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S8x320000x32 : Shape := ⟨3, ![8, 320000, 32]⟩
abbrev S10000 : Shape := ⟨1, ![10000]⟩
abbrev S10000x1 : Shape := ⟨2, ![10000, 1]⟩
abbrev S8x10000x1 : Shape := ⟨3, ![8, 10000, 1]⟩
abbrev S1x10000x1 : Shape := ⟨3, ![1, 10000, 1]⟩
abbrev S8x10000 : Shape := ⟨2, ![8, 10000]⟩
abbrev S8x1 : Shape := ⟨2, ![8, 1]⟩

abbrev nBuf : Space → Nat
  | .hbm => 104
  | .vmem => 28
  | .smem => 0
  | _ => 0

abbrev bufTy : (tb : Table) → Fin (tcTables nBuf tb) → BufTy
  | .hbm, ⟨0, _⟩ => ⟨S8x10000x11, .f32⟩
  | .hbm, ⟨1, _⟩ => ⟨S2x320000, .i32⟩
  | .hbm, ⟨2, _⟩ => ⟨S32x11, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x64, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S1x32, .f32⟩
  | .hbm, ⟨11, _⟩ => ⟨S1, .f32⟩
  | .hbm, ⟨12, _⟩ => ⟨S1x1, .f32⟩
  | .hbm, ⟨13, _⟩ => ⟨S1, .f32⟩
  | .hbm, ⟨14, _⟩ => ⟨S1x10000, .f32⟩
  | .hbm, ⟨15, _⟩ => ⟨S1, .f32⟩
  | .hbm, ⟨16, _⟩ => ⟨S11x32, .f32⟩
  | .hbm, ⟨17, _⟩ => ⟨S32x32, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S32x1, .f32⟩
  | .hbm, ⟨24, _⟩ => ⟨S1x32, .f32⟩
  | .hbm, ⟨25, _⟩ => ⟨S1x32, .f32⟩
  | .hbm, ⟨26, _⟩ => ⟨S1x32, .f32⟩
  | .hbm, ⟨27, _⟩ => ⟨S1x32, .f32⟩
  | .hbm, ⟨28, _⟩ => ⟨S1x1, .f32⟩
  | .hbm, ⟨29, _⟩ => ⟨S1x1, .f32⟩
  | .hbm, ⟨30, _⟩ => ⟨S8x10000x32, .bf16⟩
  | .hbm, ⟨31, _⟩ => ⟨S1x320000, .i32⟩
  | .hbm, ⟨32, _⟩ => ⟨S320000, .i32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S8x320000x32, .bf16⟩
  | .hbm, ⟨42, _⟩ => ⟨S1x320000, .i32⟩
  | .hbm, ⟨43, _⟩ => ⟨S320000, .i32⟩
  | .hbm, ⟨44, _⟩ => ⟨S_, .i32⟩
  | .hbm, ⟨45, _⟩ => ⟨S320000, .i32⟩
  | .hbm, ⟨46, _⟩ => ⟨S320000, .i1⟩
  | .hbm, ⟨47, _⟩ => ⟨S_, .i32⟩
  | .hbm, ⟨48, _⟩ => ⟨S320000, .i32⟩
  | .hbm, ⟨49, _⟩ => ⟨S320000, .i32⟩
  | .hbm, ⟨50, _⟩ => ⟨S320000, .i32⟩
  | .hbm, ⟨51, _⟩ => ⟨S320000x1, .i32⟩
  | .hbm, ⟨52, _⟩ => ⟨S8x320000x32, .bf16⟩
  | .hbm, ⟨53, _⟩ => ⟨S8x320000x32, .f32⟩
  | .hbm, ⟨54, _⟩ => ⟨S_, .f32⟩
  | .hbm, ⟨55, _⟩ => ⟨S8x10000x32, .f32⟩
  | .hbm, ⟨56, _⟩ => ⟨S1x320000, .i32⟩
  | .hbm, ⟨57, _⟩ => ⟨S320000, .i32⟩
  | .hbm, ⟨58, _⟩ => ⟨S_, .i32⟩
  | .hbm, ⟨59, _⟩ => ⟨S320000, .i32⟩
  | .hbm, ⟨60, _⟩ => ⟨S320000, .i1⟩
  | .hbm, ⟨61, _⟩ => ⟨S_, .i32⟩
  | .hbm, ⟨62, _⟩ => ⟨S320000, .i32⟩
  | .hbm, ⟨63, _⟩ => ⟨S320000, .i32⟩
  | .hbm, ⟨64, _⟩ => ⟨S320000, .i32⟩
  | .hbm, ⟨65, _⟩ => ⟨S320000x1, .i32⟩
  | .hbm, ⟨66, _⟩ => ⟨S8x10000x32, .f32⟩
  | .hbm, ⟨67, _⟩ => ⟨S_, .f32⟩
  | .hbm, ⟨68, _⟩ => ⟨S10000, .f32⟩
  | .hbm, ⟨69, _⟩ => ⟨S1x320000, .i32⟩
  | .hbm, ⟨70, _⟩ => ⟨S320000, .i32⟩
  | .hbm, ⟨71, _⟩ => ⟨S_, .i32⟩
  | .hbm, ⟨72, _⟩ => ⟨S320000, .i32⟩
  | .hbm, ⟨73, _⟩ => ⟨S320000, .i1⟩
  | .hbm, ⟨74, _⟩ => ⟨S_, .i32⟩
  | .hbm, ⟨75, _⟩ => ⟨S320000, .i32⟩
  | .hbm, ⟨76, _⟩ => ⟨S320000, .i32⟩
  | .hbm, ⟨77, _⟩ => ⟨S320000, .i32⟩
  | .hbm, ⟨78, _⟩ => ⟨S320000x1, .i32⟩
  | .hbm, ⟨79, _⟩ => ⟨S_, .f32⟩
  | .hbm, ⟨80, _⟩ => ⟨S320000, .f32⟩
  | .hbm, ⟨81, _⟩ => ⟨S10000, .f32⟩
  | .hbm, ⟨82, _⟩ => ⟨S_, .f32⟩
  | .hbm, ⟨83, _⟩ => ⟨S10000, .f32⟩
  | .hbm, ⟨84, _⟩ => ⟨S10000, .f32⟩
  | .hbm, ⟨85, _⟩ => ⟨S_, .f32⟩
  | .hbm, ⟨86, _⟩ => ⟨S10000, .f32⟩
  | .hbm, ⟨87, _⟩ => ⟨S10000, .f32⟩
  | .hbm, ⟨88, _⟩ => ⟨S10000x1, .f32⟩
  | .hbm, ⟨89, _⟩ => ⟨S8x10000x1, .f32⟩
  | .hbm, ⟨90, _⟩ => ⟨S8x10000, .f32⟩
  | .hbm, ⟨91, _⟩ => ⟨S10000x1, .f32⟩
  | .hbm, ⟨92, _⟩ => ⟨S8x1, .f32⟩
  | .hbm, ⟨93, _⟩ => ⟨S1x1, .f32⟩
  | .hbm, ⟨94, _⟩ => ⟨S8x1, .f32⟩
  | .hbm, ⟨95, _⟩ => ⟨S8x1, .f32⟩
  | .hbm, ⟨96, _⟩ => ⟨S8x1, .f32⟩
  | .hbm, ⟨97, _⟩ => ⟨S8x1, .f32⟩
  | .hbm, ⟨98, _⟩ => ⟨S_, .f32⟩
  | .hbm, ⟨99, _⟩ => ⟨S8x1, .f32⟩
  | .hbm, ⟨100, _⟩ => ⟨S8x1, .f32⟩
  | .hbm, ⟨101, _⟩ => ⟨S_, .f32⟩
  | .hbm, ⟨102, _⟩ => ⟨S8x1, .f32⟩
  | .hbm, ⟨103, _⟩ => ⟨S8x1, .f32⟩
  | .local _ .vmem, ⟨0, _⟩ => ⟨S1x10000x11, .f32⟩
  | .local _ .vmem, ⟨1, _⟩ => ⟨S1x10000x11, .f32⟩
  | .local _ .vmem, ⟨2, _⟩ => ⟨S11x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S1x10000x32, .bf16⟩
  | .local _ .vmem, ⟨7, _⟩ => ⟨S1x10000x32, .bf16⟩
  | .local _ .vmem, ⟨8, _⟩ => ⟨S1x10000x32, .bf16⟩
  | .local _ .vmem, ⟨9, _⟩ => ⟨S1x10000x32, .bf16⟩
  | .local _ .vmem, ⟨10, _⟩ => ⟨S1x10000x32, .bf16⟩
  | .local _ .vmem, ⟨11, _⟩ => ⟨S1x10000x32, .bf16⟩
  | .local _ .vmem, ⟨12, _⟩ => ⟨S32x32, .f32⟩
  | .local _ .vmem, ⟨13, _⟩ => ⟨S32x32, .f32⟩
  | .local _ .vmem, ⟨14, _⟩ => ⟨S1x32, .f32⟩
  | .local _ .vmem, ⟨15, _⟩ => ⟨S32x32, .f32⟩
  | .local _ .vmem, ⟨16, _⟩ => ⟨S1x32, .f32⟩
  | .local _ .vmem, ⟨17, _⟩ => ⟨S1x10000x32, .f32⟩
  | .local _ .vmem, ⟨18, _⟩ => ⟨S1x10000x32, .f32⟩
  | .local _ .vmem, ⟨19, _⟩ => ⟨S1x10000x32, .f32⟩
  | .local _ .vmem, ⟨20, _⟩ => ⟨S1x10000x32, .f32⟩
  | .local _ .vmem, ⟨21, _⟩ => ⟨S10000x1, .f32⟩
  | .local _ .vmem, ⟨22, _⟩ => ⟨S32x1, .f32⟩
  | .local _ .vmem, ⟨23, _⟩ => ⟨S1x1, .f32⟩
  | .local _ .vmem, ⟨24, _⟩ => ⟨S1x1, .f32⟩
  | .local _ .vmem, ⟨25, _⟩ => ⟨S1x1, .f32⟩
  | .local _ .vmem, ⟨26, _⟩ => ⟨S1x10000x1, .f32⟩
  | .local _ .vmem, ⟨27, _⟩ => ⟨S1x10000x1, .f32⟩
  | _, _ => ⟨S8x10000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_1 : Ref sig .tc := ⟨.hbm, 44, rfl⟩
abbrev main_v26 : Ref sig .tc := ⟨.hbm, 45, rfl⟩
abbrev main_v27 : Ref sig .tc := ⟨.hbm, 46, rfl⟩
abbrev main_c_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_3 : Ref sig .tc := ⟨.hbm, 58, rfl⟩
abbrev main_v37 : Ref sig .tc := ⟨.hbm, 59, rfl⟩
abbrev main_v38 : Ref sig .tc := ⟨.hbm, 60, rfl⟩
abbrev main_c_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_6 : Ref sig .tc := ⟨.hbm, 71, rfl⟩
abbrev main_v47 : Ref sig .tc := ⟨.hbm, 72, rfl⟩
abbrev main_v48 : Ref sig .tc := ⟨.hbm, 73, rfl⟩
abbrev main_c_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_11 : Ref sig .tc := ⟨.hbm, 98, rfl⟩
abbrev main_v69 : Ref sig .tc := ⟨.hbm, 99, rfl⟩
abbrev main_v70 : Ref sig .tc := ⟨.hbm, 100, rfl⟩
abbrev main_cst_12 : Ref sig .tc := ⟨.hbm, 101, rfl⟩
abbrev main_v71 : Ref sig .tc := ⟨.hbm, 102, rfl⟩
abbrev main_v72 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x10000x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x10000x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x10000x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x10000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x10000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S32x11_S11x32_1_0 : S32x11.Transposes [1, 0] S11x32
  transposes_S32x32_S32x32_1_0 : S32x32.Transposes [1, 0] S32x32
  slices_S32x64_S32x32_0_0 : S32x64.Slices ![0, 0] S32x32
  slices_S32x64_S32x32_0_32 : S32x64.Slices ![0, 32] S32x32
  transposes_S1x32_S32x1_1_0 : S1x32.Transposes [1, 0] S32x1
  shapeCasts_S32_S1x32 : S32.ShapeCasts S1x32
  shapeCasts_S1_S1x1 : S1.ShapeCasts S1x1
  inb_S1x10000x11_S1x10000x11_0_0_0 : ∀ a, (![0, 0, 0] : Fin 3 → Nat) a + S1x10000x11.size a ≤ S1x10000x11.size a
  h_S1x10000x11 : 0 < S1x10000x11.numel
  shapeCasts_S1x10000x11_S10000x11 : S1x10000x11.ShapeCasts S10000x11
  bitsLt_bf16_f32 : FTy.bits .bf16 < FTy.bits .f32
  inb_S11x32_S11x32_0_0 : ∀ a, (![0, 0] : Fin 2 → Nat) a + S11x32.size a ≤ S11x32.size a
  h_S11x32 : 0 < S11x32.numel
  shapeCasts_S11x32_S11x32 : S11x32.ShapeCasts S11x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x10000x32_S1x10000x32_0_0_0 : ∀ a, (![0, 0, 0] : Fin 3 → Nat) a + S1x10000x32.size a ≤ S1x10000x32.size a
  h_S1x10000x32 : 0 < S1x10000x32.numel
  shapeCasts_S1x10000x32_S10000x32 : S1x10000x32.ShapeCasts S10000x32
  shapeCasts_S10000x32_S1x10000x32 : S10000x32.ShapeCasts S1x10000x32
  packedbf16_S1x10000x32_S1x10000x32_0_0_0 : (Rect.unit (s := S1x10000x32) ![0, 0, 0] S1x10000x32.size inb_S1x10000x32_S1x10000x32_0_0_0).PackedRows (EltTy.packing .bf16)
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  slices_S2x320000_S1x320000_1_0 : S2x320000.Slices ![1, 0] S1x320000
  bcast_S_S8x10000x32 : S_.BroadcastsInDim S8x10000x32 (![] : Fin 0 → Fin S8x10000x32.rank)
  bcast_S_S10000 : S_.BroadcastsInDim S10000 (![] : Fin 0 → Fin S10000.rank)
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S1x10000x1_S1x10000x1_0_0_0 : ∀ a, (![0, 0, 0] : Fin 3 → Nat) a + S1x10000x1.size a ≤ S1x10000x1.size a
  h_S1x10000x1 : 0 < S1x10000x1.numel
  shapeCasts_S1x10000x1_S10000x1 : S1x10000x1.ShapeCasts S10000x1
  shapeCasts_S10000x1_S1x10000x1 : S10000x1.ShapeCasts S1x10000x1
  shapeCasts_S8x10000x1_S8x10000 : S8x10000x1.ShapeCasts S8x10000
  transposes_S1x10000_S10000x1_1_0 : S1x10000.Transposes [1, 0] S10000x1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  bcast_S_S8x1 : S_.BroadcastsInDim S8x1 (![] : Fin 0 → Fin S8x1.rank)
  dot_S10000x11_S11x32_S10000x32_1_0_0_1_n_n_wf : DotDims.WF S10000x11 S11x32 S10000x32 [1] [0] [0] [1] [] []
  dot_S10000x32_S32x32_S10000x32_1_0_0_1_n_n_wf : DotDims.WF S10000x32 S32x32 S10000x32 [1] [0] [0] [1] [] []
  gather_S8x10000x32_S320000x1_S8x320000x32_02_1_n_n_1_1_8132_wf : GatherDims.WF S8x10000x32 S320000x1 S8x320000x32 [0, 2] [1] [] [1] [] 1 ![8, 1, 32]
  scatter_S8x10000x32_S320000x1_S8x320000x32_02_1_1_1_wf : ScatterDims.WF S8x10000x32 S320000x1 S8x320000x32 [0, 2] [1] [1] 1
  scatter_S10000_S320000x1_S320000_n_0_0_1_wf : ScatterDims.WF S10000 S320000x1 S320000 [] [0] [0] 1
  dot_S10000x32_S32x1_S10000x1_1_0_0_1_n_n_wf : DotDims.WF S10000x32 S32x1 S10000x1 [1] [0] [0] [1] [] []
  dot_S8x10000_S10000x1_S8x1_1_0_0_1_n_n_wf : DotDims.WF S8x10000 S10000x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x11.size a ≤ S8x10000x11.size a
  hwx0_0 : ∀ i : grid0.Coords, EltTy.bits .f32 = 32 ∨ (Rect.block (s := S8x10000x11) S1x10000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x32.size a ≤ S11x32.size a
  hwx0_1 : ∀ i : grid0.Coords, EltTy.bits .f32 = 32 ∨ (Rect.block (s := S11x32) S11x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x10000x32.size a ≤ S8x10000x32.size a
  hwx0_5 : ∀ i : grid0.Coords, EltTy.bits .bf16 = 32 ∨ (Rect.block (s := S8x10000x32) S1x10000x32.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x10000x32.size a ≤ S8x320000x32.size a
  hwx1_0 : ∀ i : grid1.Coords, EltTy.bits .bf16 = 32 ∨ (Rect.block (s := S8x320000x32) S1x10000x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x10000x32.size a ≤ S8x320000x32.size a
  hwx1_1 : ∀ i : grid1.Coords, EltTy.bits .bf16 = 32 ∨ (Rect.block (s := S8x320000x32) S1x10000x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x10000x32.size a ≤ S8x320000x32.size a
  hwx1_7 : ∀ i : grid1.Coords, EltTy.bits .f32 = 32 ∨ (Rect.block (s := S8x320000x32) S1x10000x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x10000x32.size a ≤ S8x10000x32.size a
  hwx2_0 : ∀ i : grid2.Coords, EltTy.bits .f32 = 32 ∨ (Rect.block (s := S8x10000x32) S1x10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S10000x1.size a
  hwx2_1 : ∀ i : grid2.Coords, EltTy.bits .f32 = 32 ∨ (Rect.block (s := S10000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x1.size a ≤ S32x1.size a
  hwx2_2 : ∀ i : grid2.Coords, EltTy.bits .f32 = 32 ∨ (Rect.block (s := S32x1) S32x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x10000x1.size a ≤ S8x10000x1.size a
  hwx2_6 : ∀ i : grid2.Coords, EltTy.bits .f32 = 32 ∨ (Rect.block (s := S8x10000x1) S1x10000x1.size (cc2_transform_6 i) (hinb2_6 i)).WholeWords (EltTy.packing .f32)

variable [Facts₀]

def dot_S10000x11_S11x32_S10000x32_1_0_0_1_n_n : DotDims S10000x11 S11x32 S10000x32 where
  lhsContracting := [1]
  rhsContracting := [0]
  lhsNonContracting := [0]
  rhsNonContracting := [1]
  lhsBatch := []
  rhsBatch := []
  wf := dot_S10000x11_S11x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S8x10000x32_S320000x1_S8x320000x32_02_1_n_n_1_1_8132 : GatherDims S8x10000x32 S320000x1 S8x320000x32 where
  offsetDims := [0, 2]
  collapsedSliceDims := [1]
  operandBatchingDims := []
  startIndicesBatchingDims := []
  startIndexMap := [1]
  indexVectorDim := 1
  sliceSizes := ![8, 1, 32]
  wf := gather_S8x10000x32_S320000x1_S8x320000x32_02_1_n_n_1_1_8132_wf
def scatter_S8x10000x32_S320000x1_S8x320000x32_02_1_1_1 : ScatterDims S8x10000x32 S320000x1 S8x320000x32 where
  updateWindowDims := [0, 2]
  insertedWindowDims := [1]
  scatterDimsToOperandDims := [1]
  indexVectorDim := 1
  wf := scatter_S8x10000x32_S320000x1_S8x320000x32_02_1_1_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def dot_S8x10000_S10000x1_S8x1_1_0_0_1_n_n : DotDims S8x10000 S10000x1 S8x1 where
  lhsContracting := [1]
  rhsContracting := [0]
  lhsNonContracting := [0]
  rhsNonContracting := [1]
  lhsBatch := []
  rhsBatch := []
  wf := dot_S8x10000_S10000x1_S8x1_1_0_0_1_n_n_wf

abbrev win0_0 : Pipeline.Window sig grid0 :=
  Pipeline.Window.ofSpec (Memref.whole main_arg0) S1x10000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S11x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S1x10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S1x10000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v43) S1x10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S10000x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S32x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S1x10000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8x10000x11 : Shape := ⟨3, ![8, 10000, 11]⟩
abbrev S2x320000 : Shape := ⟨2, ![2, 320000]⟩
abbrev S32x11 : Shape := ⟨2, ![32, 11]⟩
abbrev S32 : Shape := ⟨1, ![32]⟩
abbrev S32x32 : Shape := ⟨2, ![32, 32]⟩
abbrev S32x64 : Shape := ⟨2, ![32, 64]⟩
abbrev S1x32 : Shape := ⟨2, ![1, 32]⟩
abbrev S1 : Shape := ⟨1, ![1]⟩
abbrev S1x1 : Shape := ⟨2, ![1, 1]⟩
abbrev S1x10000 : Shape := ⟨2, ![1, 10000]⟩
abbrev S8x10000x32 : Shape := ⟨3, ![8, 10000, 32]⟩
abbrev S1x1x32 : Shape := ⟨3, ![1, 1, 32]⟩
abbrev S_ : Shape := ⟨0, ![]⟩
abbrev S1x320000 : Shape := ⟨2, ![1, 320000]⟩
abbrev S320000 : Shape := ⟨1, ![320000]⟩
abbrev S320000x1 : Shape := ⟨2, ![320000, 1]⟩
abbrev S8x320000x32 : Shape := ⟨3, ![8, 320000, 32]⟩
abbrev S8x320000x64 : Shape := ⟨3, ![8, 320000, 64]⟩
abbrev S10000 : Shape := ⟨1, ![10000]⟩
abbrev S1x10000x1 : Shape := ⟨3, ![1, 10000, 1]⟩
abbrev S8x10000x1 : Shape := ⟨3, ![8, 10000, 1]⟩
abbrev S1x1x1 : Shape := ⟨3, ![1, 1, 1]⟩
abbrev S8x10000 : Shape := ⟨2, ![8, 10000]⟩
abbrev S10000x1 : Shape := ⟨2, ![10000, 1]⟩
abbrev S8x1 : Shape := ⟨2, ![8, 1]⟩

abbrev nBuf : Space → Nat
  | .hbm => 131
  | .vmem => 0
  | .smem => 0
  | _ => 0

abbrev hbmTy0_0 (i : Nat) : BufTy := match i % 128 with
  | 0 => ⟨S8x10000x11, .f32⟩
  | 1 => ⟨S2x320000, .i32⟩
  | 2 => ⟨S32x11, .f32⟩
  | 3 => ⟨S32, .f32⟩
  | 4 => ⟨S32x32, .f32⟩
  | 5 => ⟨S32, .f32⟩
  | 6 => ⟨S32x64, .f32⟩
  | 7 => ⟨S32, .f32⟩
  | 8 => ⟨S32x32, .f32⟩
  | 9 => ⟨S32, .f32⟩
  | 10 => ⟨S1x32, .f32⟩
  | 11 => ⟨S1, .f32⟩
  | 12 => ⟨S1x1, .f32⟩
  | 13 => ⟨S1, .f32⟩
  | 14 => ⟨S1x10000, .f32⟩
  | 15 => ⟨S1, .f32⟩
  | 16 => ⟨S8x10000x32, .f32⟩
  | 17 => ⟨S1x1x32, .f32⟩
  | 18 => ⟨S8x10000x32, .f32⟩
  | 19 => ⟨S8x10000x32, .f32⟩
  | 20 => ⟨S_, .f32⟩
  | 21 => ⟨S8x10000x32, .f32⟩
  | 22 => ⟨S8x10000x32, .f32⟩
  | 23 => ⟨S8x10000x32, .f32⟩
  | 24 => ⟨S1x1x32, .f32⟩
  | 25 => ⟨S8x10000x32, .f32⟩
  | 26 => ⟨S8x10000x32, .f32⟩
  | 27 => ⟨S_, .f32⟩
  | 28 => ⟨S8x10000x32, .f32⟩
  | 29 => ⟨S8x10000x32, .f32⟩
  | 30 => ⟨S1x320000, .i32⟩
  | 31 => ⟨S320000, .i32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S8x320000x32, .f32⟩
  | 41 => ⟨S1x320000, .i32⟩
  | 42 => ⟨S320000, .i32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S8x320000x32, .f32⟩
  | 52 => ⟨S8x320000x64, .f32⟩
  | 53 => ⟨S8x320000x32, .f32⟩
  | 54 => ⟨S1x1x32, .f32⟩
  | 55 => ⟨S8x320000x32, .f32⟩
  | 56 => ⟨S8x320000x32, .f32⟩
  | 57 => ⟨S_, .f32⟩
  | 58 => ⟨S8x320000x32, .f32⟩
  | 59 => ⟨S8x320000x32, .f32⟩
  | 60 => ⟨S8x320000x32, .f32⟩
  | 61 => ⟨S1x1x32, .f32⟩
  | 62 => ⟨S8x320000x32, .f32⟩
  | 63 => ⟨S8x320000x32, .f32⟩
  | 64 => ⟨S_, .f32⟩
  | 65 => ⟨S8x320000x32, .f32⟩
  | 66 => ⟨S8x320000x32, .f32⟩
  | 67 => ⟨S_, .f32⟩
  | 68 => ⟨S8x10000x32, .f32⟩
  | 69 => ⟨S1x320000, .i32⟩
  | 70 => ⟨S320000, .i32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S8x10000x32, .f32⟩
  | 80 => ⟨S_, .f32⟩
  | 81 => ⟨S10000, .f32⟩
  | 82 => ⟨S1x320000, .i32⟩
  | 83 => ⟨S320000, .i32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S_, .f32⟩
  | 93 => ⟨S320000, .f32⟩
  | 94 => ⟨S10000, .f32⟩
  | 95 => ⟨S_, .f32⟩
  | 96 => ⟨S10000, .f32⟩
  | 97 => ⟨S10000, .f32⟩
  | 98 => ⟨S1x10000x1, .f32⟩
  | 99 => ⟨S8x10000x32, .f32⟩
  | 100 => ⟨S8x10000x32, .f32⟩
  | 101 => ⟨S8x10000x1, .f32⟩
  | 102 => ⟨S1x1x1, .f32⟩
  | 103 => ⟨S8x10000x1, .f32⟩
  | 104 => ⟨S8x10000x1, .f32⟩
  | 105 => ⟨S_, .f32⟩
  | 106 => ⟨S8x10000x1, .f32⟩
  | 107 => ⟨S8x10000x1, .f32⟩
  | 108 => ⟨S_, .f32⟩
  | 109 => ⟨S8x10000x1, .f32⟩
  | 110 => ⟨S8x10000x1, .f32⟩
  | 111 => ⟨S1x1x1, .f32⟩
  | 112 => ⟨S8x10000x1, .f32⟩
  | 113 => ⟨S8x10000x1, .f32⟩
  | 114 => ⟨S_, .f32⟩
  | 115 => ⟨S8x10000x1, .f32⟩
  | 116 => ⟨S8x10000x1, .f32⟩
  | 117 => ⟨S8x10000, .f32⟩
  | 118 => ⟨S10000x1, .f32⟩
  | 119 => ⟨S8x1, .f32⟩
  | 120 => ⟨S1x1, .f32⟩
  | 121 => ⟨S8x1, .f32⟩
  | 122 => ⟨S8x1, .f32⟩
  | 123 => ⟨S8x1, .f32⟩
  | 124 => ⟨S8x1, .f32⟩
  | 125 => ⟨S_, .f32⟩
  | 126 => ⟨S8x1, .f32⟩
  | 127 => ⟨S8x1, .f32⟩
  | _ => ⟨S8x10000x11, .f32⟩

abbrev hbmTy0_1 (i : Nat) : BufTy := match i % 128 with
  | 0 => ⟨S_, .f32⟩
  | 1 => ⟨S8x1, .f32⟩
  | 2 => ⟨S8x1, .f32⟩
  | _ => ⟨S8x10000x11, .f32⟩

abbrev hbmTy (i : Nat) : BufTy := match i / 128 with
  | 0 => hbmTy0_0 i
  | 1 => hbmTy0_1 i
  | _ => ⟨S8x10000x11, .f32⟩

abbrev bufTy : (tb : Table) → Fin (tcTables nBuf tb) → BufTy
  | .hbm, ⟨i, _⟩ => hbmTy i
  | _, _ => ⟨S8x10000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_1 : Ref sig .tc := ⟨.hbm, 43, rfl⟩
abbrev main_v21 : Ref sig .tc := ⟨.hbm, 44, rfl⟩
abbrev main_v22 : Ref sig .tc := ⟨.hbm, 45, rfl⟩
abbrev main_c_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call2_cst : Ref sig .tc := ⟨.hbm, 57, rfl⟩
abbrev main_call2_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call3_cst : Ref sig .tc := ⟨.hbm, 64, rfl⟩
abbrev main_call3_v0 : Ref sig .tc := ⟨.hbm, 65, rfl⟩
abbrev main_v38 : Ref sig .tc := ⟨.hbm, 66, rfl⟩
abbrev main_cst : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_3 : Ref sig .tc := ⟨.hbm, 71, rfl⟩
abbrev main_v42 : Ref sig .tc := ⟨.hbm, 72, rfl⟩
abbrev main_v43 : Ref sig .tc := ⟨.hbm, 73, rfl⟩
abbrev main_c_4 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_5 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_6 : Ref sig .tc := ⟨.hbm, 84, rfl⟩
abbrev main_v52 : Ref sig .tc := ⟨.hbm, 85, rfl⟩
abbrev main_v53 : Ref sig .tc := ⟨.hbm, 86, rfl⟩
abbrev main_c_7 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_8 : Ref sig .tc := ⟨.hbm, 92, rfl⟩
abbrev main_v58 : Ref sig .tc := ⟨.hbm, 93, rfl⟩
abbrev main_v59 : Ref sig .tc := ⟨.hbm, 94, rfl⟩
abbrev main_cst_9 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_call4_cst : Ref sig .tc := ⟨.hbm, 105, rfl⟩
abbrev main_call4_v0 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_call5_cst : Ref sig .tc := ⟨.hbm, 114, rfl⟩
abbrev main_call5_v0 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_10 : Ref sig .tc := ⟨.hbm, 125, rfl⟩
abbrev main_v85 : Ref sig .tc := ⟨.hbm, 126, rfl⟩
abbrev main_v86 : Ref sig .tc := ⟨.hbm, 127, rfl⟩
abbrev main_cst_11 : Ref sig .tc := ⟨.hbm, 128, rfl⟩
abbrev main_v87 : Ref sig .tc := ⟨.hbm, 129, rfl⟩
abbrev main_v88 : Ref sig .tc := ⟨.hbm, 130, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S8x10000x32_0_1_2 : S1x1x32.BroadcastsInDim S8x10000x32 (![0, 1, 2] : Fin 3 → Fin S8x10000x32.rank)
  bcast_S_S8x10000x32 : S_.BroadcastsInDim S8x10000x32 (![] : Fin 0 → Fin S8x10000x32.rank)
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  slices_S2x320000_S1x320000_1_0 : S2x320000.Slices ![1, 0] S1x320000
  concatenates_S8x320000x32_S8x320000x32_S8x320000x64_d2 : Shape.Concatenates [S8x320000x32, S8x320000x32] S8x320000x64 2
  bcast_S1x1x32_S8x320000x32_0_1_2 : S1x1x32.BroadcastsInDim S8x320000x32 (![0, 1, 2] : Fin 3 → Fin S8x320000x32.rank)
  bcast_S_S8x320000x32 : S_.BroadcastsInDim S8x320000x32 (![] : Fin 0 → Fin S8x320000x32.rank)
  bcast_S_S10000 : S_.BroadcastsInDim S10000 (![] : Fin 0 → Fin S10000.rank)
  bcast_S10000_S1x10000x1_1 : S10000.BroadcastsInDim S1x10000x1 (![1] : Fin 1 → Fin S1x10000x1.rank)
  bcast_S1x10000x1_S8x10000x32_0_1_2 : S1x10000x1.BroadcastsInDim S8x10000x32 (![0, 1, 2] : Fin 3 → Fin S8x10000x32.rank)
  bcast_S1_S1x1x1_2 : S1.BroadcastsInDim S1x1x1 (![2] : Fin 1 → Fin S1x1x1.rank)
  bcast_S1x1x1_S8x10000x1_0_1_2 : S1x1x1.BroadcastsInDim S8x10000x1 (![0, 1, 2] : Fin 3 → Fin S8x10000x1.rank)
  bcast_S_S8x10000x1 : S_.BroadcastsInDim S8x10000x1 (![] : Fin 0 → Fin S8x10000x1.rank)
  shapeCasts_S1x1_S_ : S1x1.ShapeCasts S_
  shapeCasts_S8x10000x1_S8x10000 : S8x10000x1.ShapeCasts S8x10000
  transposes_S1x10000_S10000x1_1_0 : S1x10000.Transposes [1, 0] S10000x1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  bcast_S_S8x1 : S_.BroadcastsInDim S8x1 (![] : Fin 0 → Fin S8x1.rank)
  dot_S8x10000x11_S32x11_S8x10000x32_2_1_01_0_n_n_wf : DotDims.WF S8x10000x11 S32x11 S8x10000x32 [2] [1] [0, 1] [0] [] []
  dot_S8x10000x32_S32x32_S8x10000x32_2_1_01_0_n_n_wf : DotDims.WF S8x10000x32 S32x32 S8x10000x32 [2] [1] [0, 1] [0] [] []
  gather_S8x10000x32_S320000x1_S8x320000x32_02_1_n_n_1_1_8132_wf : GatherDims.WF S8x10000x32 S320000x1 S8x320000x32 [0, 2] [1] [] [1] [] 1 ![8, 1, 32]
  dot_S8x320000x64_S32x64_S8x320000x32_2_1_01_0_n_n_wf : DotDims.WF S8x320000x64 S32x64 S8x320000x32 [2] [1] [0, 1] [0] [] []
  dot_S8x320000x32_S32x32_S8x320000x32_2_1_01_0_n_n_wf : DotDims.WF S8x320000x32 S32x32 S8x320000x32 [2] [1] [0, 1] [0] [] []
  scatter_S8x10000x32_S320000x1_S8x320000x32_02_1_1_1_wf : ScatterDims.WF S8x10000x32 S320000x1 S8x320000x32 [0, 2] [1] [1] 1
  scatter_S10000_S320000x1_S320000_n_0_0_1_wf : ScatterDims.WF S10000 S320000x1 S320000 [] [0] [0] 1
  dot_S8x10000x32_S1x32_S8x10000x1_2_1_01_0_n_n_wf : DotDims.WF S8x10000x32 S1x32 S8x10000x1 [2] [1] [0, 1] [0] [] []
  dot_S8x10000_S10000x1_S8x1_1_0_0_1_n_n_wf : DotDims.WF S8x10000 S10000x1 S8x1 [1] [0] [0] [1] [] []

variable [Facts₀]

def dot_S8x10000x11_S32x11_S8x10000x32_2_1_01_0_n_n : DotDims S8x10000x11 S32x11 S8x10000x32 where
  lhsContracting := [2]
  rhsContracting := [1]
  lhsNonContracting := [0, 1]
  rhsNonContracting := [0]
  lhsBatch := []
  rhsBatch := []
  wf := dot_S8x10000x11_S32x11_S8x10000x32_2_1_01_0_n_n_wf
def dot_S8x10000x32_S32x32_S8x10000x32_2_1_01_0_n_n : DotDims S8x10000x32 S32x32 S8x10000x32 where
  lhsContracting := [2]
  rhsContracting := [1]
  lhsNonContracting := [0, 1]
  rhsNonContracting := [0]
  lhsBatch := []
  rhsBatch := []
  wf := dot_S8x10000x32_S32x32_S8x10000x32_2_1_01_0_n_n_wf
def gather_S8x10000x32_S320000x1_S8x320000x32_02_1_n_n_1_1_8132 : GatherDims S8x10000x32 S320000x1 S8x320000x32 where
  offsetDims := [0, 2]
  collapsedSliceDims := [1]
  operandBatchingDims := []
  startIndicesBatchingDims := []
  startIndexMap := [1]
  indexVectorDim := 1
  sliceSizes := ![8, 1, 32]
  wf := gather_S8x10000x32_S320000x1_S8x320000x32_02_1_n_n_1_1_8132_wf
def dot_S8x320000x64_S32x64_S8x320000x32_2_1_01_0_n_n : DotDims S8x320000x64 S32x64 S8x320000x32 where
  lhsContracting := [2]
  rhsContracting := [1]
  lhsNonContracting := [0, 1]
  rhsNonContracting := [0]
  lhsBatch := []
  rhsBatch := []
  wf := dot_S8x320000x64_S32x64_S8x320000x32_2_1_01_0_n_n_wf
def dot_S8x320000x32_S32x32_S8x320000x32_2_1_01_0_n_n : DotDims S8x320000x32 S32x32 S8x320000x32 where
  lhsContracting := [2]
  rhsContracting := [1]
  lhsNonContracting := [0, 1]
  rhsNonContracting := [0]
  lhsBatch := []
  rhsBatch := []
  wf := dot_S8x320000x32_S32x32_S8x320000x32_2_1_01_0_n_n_wf
def scatter_S8x10000x32_S320000x1_S8x320000x32_02_1_1_1 : ScatterDims S8x10000x32 S320000x1 S8x320000x32 where
  updateWindowDims := [0, 2]
  insertedWindowDims := [1]
  scatterDimsToOperandDims := [1]
  indexVectorDim := 1
  wf := scatter_S8x10000x32_S320000x1_S8x320000x32_02_1_1_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S8x10000x32_S1x32_S8x10000x1_2_1_01_0_n_n : DotDims S8x10000x32 S1x32 S8x10000x1 where
  lhsContracting := [2]
  rhsContracting := [1]
  lhsNonContracting := [0, 1]
  rhsNonContracting := [0]
  lhsBatch := []
  rhsBatch := []
  wf := dot_S8x10000x32_S1x32_S8x10000x1_2_1_01_0_n_n_wf
def dot_S8x10000_S10000x1_S8x1_1_0_0_1_n_n : DotDims S8x10000 S10000x1 S8x1 where
  lhsContracting := [1]
  rhsContracting := [0]
  lhsNonContracting := [0]
  rhsNonContracting := [1]
  lhsBatch := []
  rhsBatch := []
  wf := dot_S8x10000_S10000x1_S8x1_1_0_0_1_n_n_wf

class Facts : Prop extends Facts₀ where

variable [Facts]
-- ==== Proof.KRun.lean ====
/-
  The idealized kernel's run, with the contents of EVERY unscoped buffer at the end.

  @main is seven segments: a stretch of host operations, the node network's region, a stretch (the two
  gathers), the edge network's region, a stretch (the two scatter-adds and the reciprocal counts), the vertex
  read-out's region, and the closing stretch (the graph read-out). The contents of the TensorCore's buffers at
  each boundary are a fold from the launch memory: a stretch applies its operations, a region leaves each of
  its windows' arrays at what its write-backs made of it. Every weakly fair execution terminates without a
  fault, and every unscoped buffer ends at the last value of that fold.
-/
import proofs.«139887_j78151224918081_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and each unscoped buffer of each
    TensorCore ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.KRun

end
-- ==== Proof.KFold.lean ====
/-
  The contents of the TensorCore's buffers at the boundaries between the kernel program's segments.

  @main is a stretch of host operations (weights transposed and split, biases recast as rows), the node region, a
  stretch (the two row gathers at the edges' end points), the edge region, a stretch (the two scatter-adds over the
  destination vertices and the reciprocal in-degrees), the vertex region and a closing stretch (the graph read-out).
  A stretch leaves a buffer it does not write as it was, and writes each result at its operation of the operands; a
  region leaves every buffer that is not one of its windows' arrays as it was, and its output array at the closed
  form of its inputs. Here: every buffer a later segment reads, at the boundary where it is read, in terms of the
  launch memory and of the regions' output arrays.
-/
import proofs.«139887_j78151224918081_2_alg».proof.Proof.KRun
import Idealize.ShloMosaic.Lib.StableHlo.Run
import Idealize.ShloMosaic.PureOps.Ideal

set_option maxRecDepth 16384
set_option maxHeartbeats 4000000

open scoped BigOperators

noncomputable section

namespace Cert.KernelIdeal.KFold

open Idealize.ShloMosaic Idealize.ShloMosaic.TcCoe Idealize.ShloMosaic.StableHlo
open Idealize.SL.Sem
open Cert.KernelIdeal Cert.KernelIdeal.Gen

/-! ## The host operations between the regions, as named terms -/

/-- Row 0 of the edge list (the source end points) as a column of start indices: a negative entry wrapped by adding
    the number of vertices. -/
def srcCol (E : (⟨S2x320000, .i32⟩ : BufTy).Contents (Elt Ideal)) : (⟨S320000x1, .i32⟩ : BufTy).Contents (Elt Ideal) :=
  broadcastInDim S320000x1 ![0] bcast_S320000_S320000x1_0
    (select
      (cmpi .slt (shapeCast S320000 (extractStridedSlice S1x320000 ![0, 0] E slices_S2x320000_S1x320000_0_0) shapeCasts_S1x320000_S320000)
        (broadcastInDim S320000 ![] bcast_S_S320000 (constantI S_ 32 0#32)))
      (addi (shapeCast S320000 (extractStridedSlice S1x320000 ![0, 0] E slices_S2x320000_S1x320000_0_0) shapeCasts_S1x320000_S320000)
        (broadcastInDim S320000 ![] bcast_S_S320000 (constantI S_ 32 10000#32)))
      (shapeCast S320000 (extractStridedSlice S1x320000 ![0, 0] E slices_S2x320000_S1x320000_0_0) shapeCasts_S1x320000_S320000))

/-- Row 1 of the edge list (the destination end points), the same way. -/
def dstCol (E : (⟨S2x320000, .i32⟩ : BufTy).Contents (Elt Ideal)) : (⟨S320000x1, .i32⟩ : BufTy).Contents (Elt Ideal) :=
  broadcastInDim S320000x1 ![0] bcast_S320000_S320000x1_0
    (select
      (cmpi .slt (shapeCast S320000 (extractStridedSlice S1x320000 ![1, 0] E slices_S2x320000_S1x320000_1_0) shapeCasts_S1x320000_S320000)
        (broadcastInDim S320000 ![] bcast_S_S320000 (constantI S_ 32 0#32)))
      (addi (shapeCast S320000 (extractStridedSlice S1x320000 ![1, 0] E slices_S2x320000_S1x320000_1_0) shapeCasts_S1x320000_S320000)
        (broadcastInDim S320000 ![] bcast_S_S320000 (constantI S_ 32 10000#32)))
      (shapeCast S320000 (extractStridedSlice S1x320000 ![1, 0] E slices_S2x320000_S1x320000_1_0) shapeCasts_S1x320000_S320000))

/-- Rows of the hidden activations gathered at a column of start indices. -/
def gatherRows (H : (⟨S8x10000x32, .bf16⟩ : BufTy).Contents (Elt Ideal)) (I : (⟨S320000x1, .i32⟩ : BufTy).Contents (Elt Ideal)) :
    (⟨S8x320000x32, .bf16⟩ : BufTy).Contents (Elt Ideal) :=
  Host.gather gather_S8x10000x32_S320000x1_S8x320000x32_02_1_n_n_1_1_8132 H I

/-- The messages summed over their destination vertices, from zeros. -/
def sumMessages (I : (⟨S320000x1, .i32⟩ : BufTy).Contents (Elt Ideal)) (Msg : (⟨S8x320000x32, .f32⟩ : BufTy).Contents (Elt Ideal)) :
    (⟨S8x10000x32, .f32⟩ : BufTy).Contents (Elt Ideal) :=
  Host.scatterAdd scatter_S8x10000x32_S320000x1_S8x320000x32_02_1_1_1
    (broadcastInDim S8x10000x32 ![] bcast_S_S8x10000x32 (constant (F := Ideal) S_ .f32 0x00000000#32)) I Msg

/-- The in-degrees: ones summed over the destination vertices, from zeros. -/
def inDegree (I : (⟨S320000x1, .i32⟩ : BufTy).Contents (Elt Ideal)) : (⟨S10000, .f32⟩ : BufTy).Contents (Elt Ideal) :=
  Host.scatterAdd scatter_S10000_S320000x1_S320000_n_0_0_1
    (broadcastInDim S10000 ![] bcast_S_S10000 (constant (F := Ideal) S_ .f32 0x00000000#32)) I
    (broadcastInDim S320000 ![] bcast_S_S320000 (constant (F := Ideal) S_ .f32 0x3F800000#32))

/-- The reciprocal of max (in-degree) 1, as a column. -/
def recipColumn (I : (⟨S320000x1, .i32⟩ : BufTy).Contents (Elt Ideal)) : (⟨S10000x1, .f32⟩ : BufTy).Contents (Elt Ideal) :=
  shapeCast S10000x1
    (Host.divf (F := Ideal) (broadcastInDim S10000 ![] bcast_S_S10000 (constant (F := Ideal) S_ .f32 0x3F800000#32))
      (maximumf (inDegree I) (broadcastInDim S10000 ![] bcast_S_S10000 (constant (F := Ideal) S_ .f32 0x3F800000#32))))
    shapeCasts_S10000_S10000x1

/-- The graph read-out: the logistic function of the vertex read-outs' product with the read-out weights plus the bias,
    spelt 1 / (1 + exp (-x)). -/
def graphReadout (Vx : (⟨S8x10000x1, .f32⟩ : BufTy).Contents (Elt Ideal)) (Wg : (⟨S1x10000, .f32⟩ : BufTy).Contents (Elt Ideal))
    (bg : (⟨S1, .f32⟩ : BufTy).Contents (Elt Ideal)) : (⟨S8x1, .f32⟩ : BufTy).Contents (Elt Ideal) :=
  Host.divf (F := Ideal) (broadcastInDim S8x1 ![] bcast_S_S8x1 (constant (F := Ideal) S_ .f32 0x3F800000#32))
    (addf (broadcastInDim S8x1 ![] bcast_S_S8x1 (constant (F := Ideal) S_ .f32 0x3F800000#32))
      (Host.exp (F := Ideal)
        (Host.negf (F := Ideal)
          (addf
            (Host.dotGeneral (F := Ideal) (φ₁ := .f32) (φ₂ := .f32) dot_S8x10000_S10000x1_S8x1_1_0_0_1_n_n none
              (shapeCast S8x10000 Vx shapeCasts_S8x10000x1_S8x10000)
              (transpose S10000x1 [1, 0] Wg transposes_S1x10000_S10000x1_1_0))
            (broadcastInDim S8x1 ![0, 1] bcast_S1x1_S8x1_0_1 (broadcastInDim S1x1 ![1] bcast_S1_S1x1_1 bg))))))

variable (m : (ℓ : Loc nD τ sig) → Buf (Elt Ideal) ℓ) (ρ : Dev nD → PrngReg) (c : Dev nD)

/-! ## Buffers carried unchanged to the boundary where they are read -/

theorem at1_main_v0 : W1 m ρ c (Proc.devRef .tc main_v0) = transpose S11x32 [1, 0] (m ((c : Thread nD τ).loc main_arg2)) transposes_S32x11_S11x32_1_0 := by
  show StableHlo.after hostOps0 (W0 m ρ c) (Proc.devRef .tc main_v0) = _
  after_results_simp <;> rfl
theorem at1_main_v1 : W1 m ρ c (Proc.devRef .tc main_v1) = transpose S32x32 [1, 0] (m ((c : Thread nD τ).loc main_arg4)) transposes_S32x32_S32x32_1_0 := by
  show StableHlo.after hostOps0 (W0 m ρ c) (Proc.devRef .tc main_v1) = _
  after_results_simp <;> rfl
theorem at1_main_v3 : W1 m ρ c (Proc.devRef .tc main_v3) = transpose S32x32 [1, 0] (extractStridedSlice S32x32 ![0, 0] (m ((c : Thread nD τ).loc main_arg6)) slices_S32x64_S32x32_0_0) transposes_S32x32_S32x32_1_0 := by
  show StableHlo.after hostOps0 (W0 m ρ c) (Proc.devRef .tc main_v3) = _
  after_results_simp <;> rfl
theorem at1_main_v5 : W1 m ρ c (Proc.devRef .tc main_v5) = transpose S32x32 [1, 0] (extractStridedSlice S32x32 ![0, 32] (m ((c : Thread nD τ).loc main_arg6)) slices_S32x64_S32x32_0_32) transposes_S32x32_S32x32_1_0 := by
  show StableHlo.after hostOps0 (W0 m ρ c) (Proc.devRef .tc main_v5) = _
  after_results_simp <;> rfl
theorem at1_main_v6 : W1 m ρ c (Proc.devRef .tc main_v6) = transpose S32x32 [1, 0] (m ((c : Thread nD τ).loc main_arg8)) transposes_S32x32_S32x32_1_0 := by
  show StableHlo.after hostOps0 (W0 m ρ c) (Proc.devRef .tc main_v6) = _
  after_results_simp <;> rfl
theorem at1_main_v7 : W1 m ρ c (Proc.devRef .tc main_v7) = transpose S32x1 [1, 0] (m ((c : Thread nD τ).loc main_arg10)) transposes_S1x32_S32x1_1_0 := by
  show StableHlo.after hostOps0 (W0 m ρ c) (Proc.devRef .tc main_v7) = _
  after_results_simp <;> rfl
theorem at1_main_v8 : W1 m ρ c (Proc.devRef .tc main_v8) = shapeCast S1x32 (m ((c : Thread nD τ).loc main_arg3)) shapeCasts_S32_S1x32 := by
  show StableHlo.after hostOps0 (W0 m ρ c) (Proc.devRef .tc main_v8) = _
  after_results_simp <;> rfl
theorem at1_main_v9 : W1 m ρ c (Proc.devRef .tc main_v9) = shapeCast S1x32 (m ((c : Thread nD τ).loc main_arg5)) shapeCasts_S32_S1x32 := by
  show StableHlo.after hostOps0 (W0 m ρ c) (Proc.devRef .tc main_v9) = _
  after_results_simp <;> rfl
theorem at1_main_v10 : W1 m ρ c (Proc.devRef .tc main_v10) = shapeCast S1x32 (m ((c : Thread nD τ).loc main_arg7)) shapeCasts_S32_S1x32 := by
  show StableHlo.after hostOps0 (W0 m ρ c) (Proc.devRef .tc main_v10) = _
  after_results_simp <;> rfl
theorem at1_main_v11 : W1 m ρ c (Proc.devRef .tc main_v11) = shapeCast S1x32 (m ((c : Thread nD τ).loc main_arg9)) shapeCasts_S32_S1x32 := by
  show StableHlo.after hostOps0 (W0 m ρ c) (Proc.devRef .tc main_v11) = _
  after_results_simp <;> rfl
theorem at1_main_v12 : W1 m ρ c (Proc.devRef .tc main_v12) = shapeCast S1x1 (m ((c : Thread nD τ).loc main_arg11)) shapeCasts_S1_S1x1 := by
  show StableHlo.after hostOps0 (W0 m ρ c) (Proc.devRef .tc main_v12) = _
  after_results_simp <;> rfl
theorem at1_main_v13 : W1 m ρ c (Proc.devRef .tc main_v13) = shapeCast S1x1 (m ((c : Thread nD τ).loc main_arg13)) shapeCasts_S1_S1x1 := by
  show StableHlo.after hostOps0 (W0 m ρ c) (Proc.devRef .tc main_v13) = _
  after_results_simp <;> rfl
theorem at1_main_arg0 : W1 m ρ c (Proc.devRef .tc main_arg0) = (m ((c : Thread nD τ).loc main_arg0)) := by
  show StableHlo.after hostOps0 (W0 m ρ c) (Proc.devRef .tc main_arg0) = _
  after_results_simp <;> rfl
theorem at1_main_arg1 : W1 m ρ c (Proc.devRef .tc main_arg1) = (m ((c : Thread nD τ).loc main_arg1)) := by
  show StableHlo.after hostOps0 (W0 m ρ c) (Proc.devRef .tc main_arg1) = _
  after_results_simp <;> rfl
theorem at1_main_arg12 : W1 m ρ c (Proc.devRef .tc main_arg12) = (m ((c : Thread nD τ).loc main_arg12)) := by
  show StableHlo.after hostOps0 (W0 m ρ c) (Proc.devRef .tc main_arg12) = _
  after_results_simp <;> rfl
theorem at1_main_arg14 : W1 m ρ c (Proc.devRef .tc main_arg14) = (m ((c : Thread nD τ).loc main_arg14)) := by
  show StableHlo.after hostOps0 (W0 m ρ c) (Proc.devRef .tc main_arg14) = _
  after_results_simp <;> rfl
theorem at1_main_arg15 : W1 m ρ c (Proc.devRef .tc main_arg15) = (m ((c : Thread nD τ).loc main_arg15)) := by
  show StableHlo.after hostOps0 (W0 m ρ c) (Proc.devRef .tc main_arg15) = _
  after_results_simp <;> rfl
theorem at2_main_v3 : W2 m ρ c (Proc.devRef .tc main_v3) = transpose S32x32 [1, 0] (extractStridedSlice S32x32 ![0, 0] (m ((c : Thread nD τ).loc main_arg6)) slices_S32x64_S32x32_0_0) transposes_S32x32_S32x32_1_0 :=
  (W2_of_ne m ρ c main_v3 (by decide)).trans (at1_main_v3 m ρ c)
theorem at2_main_v5 : W2 m ρ c (Proc.devRef .tc main_v5) = transpose S32x32 [1, 0] (extractStridedSlice S32x32 ![0, 32] (m ((c : Thread nD τ).loc main_arg6)) slices_S32x64_S32x32_0_32) transposes_S32x32_S32x32_1_0 :=
  (W2_of_ne m ρ c main_v5 (by decide)).trans (at1_main_v5 m ρ c)
theorem at2_main_v10 : W2 m ρ c (Proc.devRef .tc main_v10) = shapeCast S1x32 (m ((c : Thread nD τ).loc main_arg7)) shapeCasts_S32_S1x32 :=
  (W2_of_ne m ρ c main_v10 (by decide)).trans (at1_main_v10 m ρ c)
theorem at2_main_v6 : W2 m ρ c (Proc.devRef .tc main_v6) = transpose S32x32 [1, 0] (m ((c : Thread nD τ).loc main_arg8)) transposes_S32x32_S32x32_1_0 :=
  (W2_of_ne m ρ c main_v6 (by decide)).trans (at1_main_v6 m ρ c)
theorem at2_main_v11 : W2 m ρ c (Proc.devRef .tc main_v11) = shapeCast S1x32 (m ((c : Thread nD τ).loc main_arg9)) shapeCasts_S32_S1x32 :=
  (W2_of_ne m ρ c main_v11 (by decide)).trans (at1_main_v11 m ρ c)
theorem at2_main_v7 : W2 m ρ c (Proc.devRef .tc main_v7) = transpose S32x1 [1, 0] (m ((c : Thread nD τ).loc main_arg10)) transposes_S1x32_S32x1_1_0 :=
  (W2_of_ne m ρ c main_v7 (by decide)).trans (at1_main_v7 m ρ c)
theorem at2_main_v12 : W2 m ρ c (Proc.devRef .tc main_v12) = shapeCast S1x1 (m ((c : Thread nD τ).loc main_arg11)) shapeCasts_S1_S1x1 :=
  (W2_of_ne m ρ c main_v12 (by decide)).trans (at1_main_v12 m ρ c)
theorem at2_main_v13 : W2 m ρ c (Proc.devRef .tc main_v13) = shapeCast S1x1 (m ((c : Thread nD τ).loc main_arg13)) shapeCasts_S1_S1x1 :=
  (W2_of_ne m ρ c main_v13 (by decide)).trans (at1_main_v13 m ρ c)
theorem at2_main_arg1 : W2 m ρ c (Proc.devRef .tc main_arg1) = (m ((c : Thread nD τ).loc main_arg1)) :=
  (W2_of_ne m ρ c main_arg1 (by decide)).trans (at1_main_arg1 m ρ c)
theorem at2_main_arg12 : W2 m ρ c (Proc.devRef .tc main_arg12) = (m ((c : Thread nD τ).loc main_arg12)) :=
  (W2_of_ne m ρ c main_arg12 (by decide)).trans (at1_main_arg12 m ρ c)
theorem at2_main_arg14 : W2 m ρ c (Proc.devRef .tc main_arg14) = (m ((c : Thread nD τ).loc main_arg14)) :=
  (W2_of_ne m ρ c main_arg14 (by decide)).trans (at1_main_arg14 m ρ c)
theorem at2_main_arg15 : W2 m ρ c (Proc.devRef .tc main_arg15) = (m ((c : Thread nD τ).loc main_arg15)) :=
  (W2_of_ne m ρ c main_arg15 (by decide)).trans (at1_main_arg15 m ρ c)
theorem at3_main_v3 : W3 m ρ c (Proc.devRef .tc main_v3) = transpose S32x32 [1, 0] (extractStridedSlice S32x32 ![0, 0] (m ((c : Thread nD τ).loc main_arg6)) slices_S32x64_S32x32_0_0) transposes_S32x32_S32x32_1_0 :=
  (show StableHlo.after hostOps1 (W2 m ρ c) (Proc.devRef .tc main_v3) = W2 m ρ c (Proc.devRef .tc main_v3) by after_results_simp).trans (at2_main_v3 m ρ c)
theorem at3_main_v5 : W3 m ρ c (Proc.devRef .tc main_v5) = transpose S32x32 [1, 0] (extractStridedSlice S32x32 ![0, 32] (m ((c : Thread nD τ).loc main_arg6)) slices_S32x64_S32x32_0_32) transposes_S32x32_S32x32_1_0 :=
  (show StableHlo.after hostOps1 (W2 m ρ c) (Proc.devRef .tc main_v5) = W2 m ρ c (Proc.devRef .tc main_v5) by after_results_simp).trans (at2_main_v5 m ρ c)
theorem at3_main_v10 : W3 m ρ c (Proc.devRef .tc main_v10) = shapeCast S1x32 (m ((c : Thread nD τ).loc main_arg7)) shapeCasts_S32_S1x32 :=
  (show StableHlo.after hostOps1 (W2 m ρ c) (Proc.devRef .tc main_v10) = W2 m ρ c (Proc.devRef .tc main_v10) by after_results_simp).trans (at2_main_v10 m ρ c)
theorem at3_main_v6 : W3 m ρ c (Proc.devRef .tc main_v6) = transpose S32x32 [1, 0] (m ((c : Thread nD τ).loc main_arg8)) transposes_S32x32_S32x32_1_0 :=
  (show StableHlo.after hostOps1 (W2 m ρ c) (Proc.devRef .tc main_v6) = W2 m ρ c (Proc.devRef .tc main_v6) by after_results_simp).trans (at2_main_v6 m ρ c)
theorem at3_main_v11 : W3 m ρ c (Proc.devRef .tc main_v11) = shapeCast S1x32 (m ((c : Thread nD τ).loc main_arg9)) shapeCasts_S32_S1x32 :=
  (show StableHlo.after hostOps1 (W2 m ρ c) (Proc.devRef .tc main_v11) = W2 m ρ c (Proc.devRef .tc main_v11) by after_results_simp).trans (at2_main_v11 m ρ c)
theorem at3_main_v7 : W3 m ρ c (Proc.devRef .tc main_v7) = transpose S32x1 [1, 0] (m ((c : Thread nD τ).loc main_arg10)) transposes_S1x32_S32x1_1_0 :=
  (show StableHlo.after hostOps1 (W2 m ρ c) (Proc.devRef .tc main_v7) = W2 m ρ c (Proc.devRef .tc main_v7) by after_results_simp).trans (at2_main_v7 m ρ c)
theorem at3_main_v12 : W3 m ρ c (Proc.devRef .tc main_v12) = shapeCast S1x1 (m ((c : Thread nD τ).loc main_arg11)) shapeCasts_S1_S1x1 :=
  (show StableHlo.after hostOps1 (W2 m ρ c) (Proc.devRef .tc main_v12) = W2 m ρ c (Proc.devRef .tc main_v12) by after_results_simp).trans (at2_main_v12 m ρ c)
theorem at3_main_v13 : W3 m ρ c (Proc.devRef .tc main_v13) = shapeCast S1x1 (m ((c : Thread nD τ).loc main_arg13)) shapeCasts_S1_S1x1 :=
  (show StableHlo.after hostOps1 (W2 m ρ c) (Proc.devRef .tc main_v13) = W2 m ρ c (Proc.devRef .tc main_v13) by after_results_simp).trans (at2_main_v13 m ρ c)
theorem at3_main_arg1 : W3 m ρ c (Proc.devRef .tc main_arg1) = (m ((c : Thread nD τ).loc main_arg1)) :=
  (show StableHlo.after hostOps1 (W2 m ρ c) (Proc.devRef .tc main_arg1) = W2 m ρ c (Proc.devRef .tc main_arg1) by after_results_simp).trans (at2_main_arg1 m ρ c)
theorem at3_main_arg12 : W3 m ρ c (Proc.devRef .tc main_arg12) = (m ((c : Thread nD τ).loc main_arg12)) :=
  (show StableHlo.after hostOps1 (W2 m ρ c) (Proc.devRef .tc main_arg12) = W2 m ρ c (Proc.devRef .tc main_arg12) by after_results_simp).trans (at2_main_arg12 m ρ c)
theorem at3_main_arg14 : W3 m ρ c (Proc.devRef .tc main_arg14) = (m ((c : Thread nD τ).loc main_arg14)) :=
  (show StableHlo.after hostOps1 (W2 m ρ c) (Proc.devRef .tc main_arg14) = W2 m ρ c (Proc.devRef .tc main_arg14) by after_results_simp).trans (at2_main_arg14 m ρ c)
theorem at3_main_arg15 : W3 m ρ c (Proc.devRef .tc main_arg15) = (m ((c : Thread nD τ).loc main_arg15)) :=
  (show StableHlo.after hostOps1 (W2 m ρ c) (Proc.devRef .tc main_arg15) = W2 m ρ c (Proc.devRef .tc main_arg15) by after_results_simp).trans (at2_main_arg15 m ρ c)
theorem at4_main_v7 : W4 m ρ c (Proc.devRef .tc main_v7) = transpose S32x1 [1, 0] (m ((c : Thread nD τ).loc main_arg10)) transposes_S1x32_S32x1_1_0 :=
  (W4_of_ne m ρ c main_v7 (by decide)).trans (at3_main_v7 m ρ c)
theorem at4_main_v12 : W4 m ρ c (Proc.devRef .tc main_v12) = shapeCast S1x1 (m ((c : Thread nD τ).loc main_arg11)) shapeCasts_S1_S1x1 :=
  (W4_of_ne m ρ c main_v12 (by decide)).trans (at3_main_v12 m ρ c)
theorem at4_main_v13 : W4 m ρ c (Proc.devRef .tc main_v13) = shapeCast S1x1 (m ((c : Thread nD τ).loc main_arg13)) shapeCasts_S1_S1x1 :=
  (W4_of_ne m ρ c main_v13 (by decide)).trans (at3_main_v13 m ρ c)
theorem at4_main_arg1 : W4 m ρ c (Proc.devRef .tc main_arg1) = (m ((c : Thread nD τ).loc main_arg1)) :=
  (W4_of_ne m ρ c main_arg1 (by decide)).trans (at3_main_arg1 m ρ c)
theorem at4_main_arg12 : W4 m ρ c (Proc.devRef .tc main_arg12) = (m ((c : Thread nD τ).loc main_arg12)) :=
  (W4_of_ne m ρ c main_arg12 (by decide)).trans (at3_main_arg12 m ρ c)
theorem at4_main_arg14 : W4 m ρ c (Proc.devRef .tc main_arg14) = (m ((c : Thread nD τ).loc main_arg14)) :=
  (W4_of_ne m ρ c main_arg14 (by decide)).trans (at3_main_arg14 m ρ c)
theorem at4_main_arg15 : W4 m ρ c (Proc.devRef .tc main_arg15) = (m ((c : Thread nD τ).loc main_arg15)) :=
  (W4_of_ne m ρ c main_arg15 (by decide)).trans (at3_main_arg15 m ρ c)
theorem at5_main_v7 : W5 m ρ c (Proc.devRef .tc main_v7) = transpose S32x1 [1, 0] (m ((c : Thread nD τ).loc main_arg10)) transposes_S1x32_S32x1_1_0 :=
  (show StableHlo.after hostOps2 (W4 m ρ c) (Proc.devRef .tc main_v7) = W4 m ρ c (Proc.devRef .tc main_v7) by after_results_simp).trans (at4_main_v7 m ρ c)
theorem at5_main_v12 : W5 m ρ c (Proc.devRef .tc main_v12) = shapeCast S1x1 (m ((c : Thread nD τ).loc main_arg11)) shapeCasts_S1_S1x1 :=
  (show StableHlo.after hostOps2 (W4 m ρ c) (Proc.devRef .tc main_v12) = W4 m ρ c (Proc.devRef .tc main_v12) by after_results_simp).trans (at4_main_v12 m ρ c)
theorem at5_main_v13 : W5 m ρ c (Proc.devRef .tc main_v13) = shapeCast S1x1 (m ((c : Thread nD τ).loc main_arg13)) shapeCasts_S1_S1x1 :=
  (show StableHlo.after hostOps2 (W4 m ρ c) (Proc.devRef .tc main_v13) = W4 m ρ c (Proc.devRef .tc main_v13) by after_results_simp).trans (at4_main_v13 m ρ c)
theorem at5_main_arg12 : W5 m ρ c (Proc.devRef .tc main_arg12) = (m ((c : Thread nD τ).loc main_arg12)) :=
  (show StableHlo.after hostOps2 (W4 m ρ c) (Proc.devRef .tc main_arg12) = W4 m ρ c (Proc.devRef .tc main_arg12) by after_results_simp).trans (at4_main_arg12 m ρ c)
theorem at5_main_arg14 : W5 m ρ c (Proc.devRef .tc main_arg14) = (m ((c : Thread nD τ).loc main_arg14)) :=
  (show StableHlo.after hostOps2 (W4 m ρ c) (Proc.devRef .tc main_arg14) = W4 m ρ c (Proc.devRef .tc main_arg14) by after_results_simp).trans (at4_main_arg14 m ρ c)
theorem at5_main_arg15 : W5 m ρ c (Proc.devRef .tc main_arg15) = (m ((c : Thread nD τ).loc main_arg15)) :=
  (show StableHlo.after hostOps2 (W4 m ρ c) (Proc.devRef .tc main_arg15) = W4 m ρ c (Proc.devRef .tc main_arg15) by after_results_simp).trans (at4_main_arg15 m ρ c)
theorem at6_main_arg14 : W6 m ρ c (Proc.devRef .tc main_arg14) = (m ((c : Thread nD τ).loc main_arg14)) :=
  (W6_of_ne m ρ c main_arg14 (by decide)).trans (at5_main_arg14 m ρ c)
theorem at6_main_arg15 : W6 m ρ c (Proc.devRef .tc main_arg15) = (m ((c : Thread nD τ).loc main_arg15)) :=
  (W6_of_ne m ρ c main_arg15 (by decide)).trans (at5_main_arg15 m ρ c)

/-! ## What the stretches write -/

theorem at3_main_v23 : W3 m ρ c (Proc.devRef .tc main_v23) = gatherRows (W2 m ρ c (Proc.devRef .tc main_v14)) (srcCol (W2 m ρ c (Proc.devRef .tc main_arg1))) := by
  show StableHlo.after hostOps1 (W2 m ρ c) (Proc.devRef .tc main_v23) = _
  after_results_simp <;> rfl

theorem at3_main_v32 : W3 m ρ c (Proc.devRef .tc main_v32) = gatherRows (W2 m ρ c (Proc.devRef .tc main_v14)) (dstCol (W2 m ρ c (Proc.devRef .tc main_arg1))) := by
  show StableHlo.after hostOps1 (W2 m ρ c) (Proc.devRef .tc main_v32) = _
  after_results_simp <;> rfl

theorem at5_main_v43 : W5 m ρ c (Proc.devRef .tc main_v43) = sumMessages (dstCol (W4 m ρ c (Proc.devRef .tc main_arg1))) (W4 m ρ c (Proc.devRef .tc main_v33)) := by
  show StableHlo.after hostOps2 (W4 m ρ c) (Proc.devRef .tc main_v43) = _
  after_results_simp <;> rfl

theorem at5_main_v59 : W5 m ρ c (Proc.devRef .tc main_v59) = recipColumn (dstCol (W4 m ρ c (Proc.devRef .tc main_arg1))) := by
  show StableHlo.after hostOps2 (W4 m ρ c) (Proc.devRef .tc main_v59) = _
  after_results_simp <;> rfl

theorem at7_main_v72 : W7 m ρ c (Proc.devRef .tc main_v72)
    = graphReadout (W6 m ρ c (Proc.devRef .tc main_v60)) (W6 m ρ c (Proc.devRef .tc main_arg14)) (W6 m ρ c (Proc.devRef .tc main_arg15)) := by
  show StableHlo.after hostOps3 (W6 m ρ c) (Proc.devRef .tc main_v72) = _
  after_results_simp <;> rfl

end Cert.KernelIdeal.KFold

end
-- ==== Proof.LibQuotient.lean ====
/-
  Quotients by a nonzero divisor on the extended reals, at the ideal instance's division.

  `Ideal.div a d` is `a · d⁻¹` whenever `d ≠ 0` — at the infinities too — so dividing by `d` is multiplying by the
  quotient `1 / d`, on either side; and a value clipped below at one is never zero. Together: one program's
  `x / max n 1` meets another's `x · (1 / max n 1)` (a mean over a count clipped at one) at every extended real,
  with no finiteness assumed of `x` or of `n`.
-/
import Idealize.ShloMosaic.PureOps.Ideal

namespace Cert.Lib.Quotient

open Idealize.ShloMosaic

/-- Dividing by a nonzero `d` is multiplying by the quotient `1 / d`, at every extended real. -/
theorem div_eq_mul_one_div (a d : EReal) (hd : d ≠ 0) : Ideal.div a d = a * Ideal.div 1 d := by
  unfold Ideal.div
  rw [if_neg hd, if_neg hd, one_mul]

/-- The same with the quotient `1 / d` as the left factor. -/
theorem div_eq_one_div_mul (a d : EReal) (hd : d ≠ 0) : Ideal.div a d = Ideal.div 1 d * a := by
  rw [div_eq_mul_one_div a d hd, mul_comm]

/-- A value clipped below at one is not zero. -/
theorem max_one_ne_zero (x : EReal) : max x (1 : EReal) ≠ 0 :=
  ne_of_gt (lt_of_lt_of_le zero_lt_one (le_max_right x 1))

/-- The same with the one on the left. -/
theorem one_max_ne_zero (x : EReal) : max (1 : EReal) x ≠ 0 :=
  ne_of_gt (lt_of_lt_of_le zero_lt_one (le_max_left 1 x))

/-- A quotient by a value clipped below at one is the product with the reciprocal of the clipped value. -/
theorem div_max_one (a x : EReal) : Ideal.div a (max x 1) = a * Ideal.div 1 (max x 1) :=
  div_eq_mul_one_div a _ (max_one_ne_zero x)

end Cert.Lib.Quotient
-- ==== Proof.Spec.lean ====
/-
  The three small networks of the message-passing model, one output entry each, as plain functions on the
  extended reals, and the two laws that join the kernel's arrangement to the reference's.

  * node:   relu (relu (x · W1ᵀ + b1) · W2ᵀ + b2), one vertex's 11 features to one of 32 hidden units;
  * edge:   relu (relu (g0 · We1[:, :32]ᵀ + g1 · We1[:, 32:]ᵀ + be1) · We2ᵀ + be2), the two gathered end points'
            hidden vectors to one of 32 message units;
  * vertex: relu (relu ((s · (1 / max cnt 1)) · Wv1ᵀ + bv1) · Wv2 + bv2), a vertex's summed messages and its
            in-degree to its read-out.
  The weights are indexed (output unit, input unit), as the model's arguments are.

  The laws: a sum over 64 = 32 + 32 joined coordinates is the sum over the first 32 plus the sum over the last 32
  (commutativity and associativity of + only), and a quotient by a nonzero d is the product with 1 / d — both
  hold on every extended real, so no finiteness of the inputs is used.
-/
import Mathlib
import Idealize.ShloMosaic.PureOps.Ideal
import proofs.«139887_j78151224918081_2_alg».proof.Proof.LibQuotient

open scoped BigOperators

noncomputable section

namespace Cert.Spec

open Idealize.ShloMosaic

/-- The float zero and one, kept as the words both programs print. -/
abbrev z : EReal := Ideal.ofBits .f32 0x00000000#32
abbrev one : EReal := Ideal.ofBits .f32 0x3F800000#32

/-- One hidden unit of the node network. -/
def node (x : Fin 11 → EReal) (W1 : Fin 32 → Fin 11 → EReal) (b1 : Fin 32 → EReal)
    (W2 : Fin 32 → Fin 32 → EReal) (b2 : Fin 32 → EReal) (h : Fin 32) : EReal :=
  max (∑ k : Fin 32, max (∑ f : Fin 11, x f * W1 k f + b1 k) z * W2 h k + b2 h) z

/-- One message unit of the edge network, the first layer as two products of 32 terms. -/
def edge (g0 g1 : Fin 32 → EReal) (We1 : Fin 32 → Fin 64 → EReal) (be1 : Fin 32 → EReal)
    (We2 : Fin 32 → Fin 32 → EReal) (be2 : Fin 32 → EReal) (o : Fin 32) : EReal :=
  max (∑ k : Fin 32, max ((∑ j : Fin 32, g0 j * We1 k (Fin.castAdd 32 j)) + (∑ j : Fin 32, g1 j * We1 k (Fin.natAdd 32 j)) + be1 k) z
        * We2 o k + be2 o) z

/-- The end points' hidden vectors joined: coordinate f < 32 from the first, f ≥ 32 from the second. -/
def joined (g0 g1 : Fin 32 → EReal) (f : Fin 64) : EReal :=
  if h : f.val < 32 then g0 ⟨f.val, h⟩ else g1 ⟨f.val - 32, by omega⟩

/-- The first layer as one product of 64 terms over the joined vector is the two products of 32. -/
theorem joined_sum (g0 g1 : Fin 32 → EReal) (w : Fin 64 → EReal) :
    (∑ f : Fin 64, joined g0 g1 f * w f)
      = (∑ j : Fin 32, g0 j * w (Fin.castAdd 32 j)) + (∑ j : Fin 32, g1 j * w (Fin.natAdd 32 j)) := by
  have e := Fin.sum_univ_add (M := EReal) (a := 32) (b := 32) (fun f : Fin (32 + 32) => joined g0 g1 f * w f)
  refine e.trans ?_
  have h1 : ∀ j : Fin 32, joined g0 g1 (Fin.castAdd 32 j) = g0 j := fun j => by
    have hj : (Fin.castAdd 32 j : Fin (32 + 32)).val < 32 := j.isLt
    simp only [joined, dif_pos hj]
    rfl
  have h2 : ∀ j : Fin 32, joined g0 g1 (Fin.natAdd 32 j) = g1 j := fun j => by
    have hj : ¬ (Fin.natAdd 32 j : Fin (32 + 32)).val < 32 := by simp [Fin.natAdd]
    simp only [joined, dif_neg hj]
    congr 1
    apply Fin.ext
    simp [Fin.natAdd]
  simp only [h1, h2]

/-- One message unit with the first layer as ONE product over the joined vector: the same value. -/
theorem edge_joined (g0 g1 : Fin 32 → EReal) (We1 : Fin 32 → Fin 64 → EReal) (be1 : Fin 32 → EReal)
    (We2 : Fin 32 → Fin 32 → EReal) (be2 : Fin 32 → EReal) (o : Fin 32) :
    max (∑ k : Fin 32, max ((∑ f : Fin 64, joined g0 g1 f * We1 k f) + be1 k) z * We2 o k + be2 o) z
      = edge g0 g1 We1 be1 We2 be2 o := by
  unfold edge
  simp only [joined_sum]

/-- A vertex's read-out from its summed messages s and its in-degree cnt, the mean as a product with the
    reciprocal of max cnt 1. -/
def vertex (s : Fin 32 → EReal) (cnt : EReal) (Wv1 : Fin 32 → EReal) (bv1 Wv2 bv2 : EReal) : EReal :=
  max (max ((∑ h : Fin 32, (s h * Ideal.div one (max cnt one)) * Wv1 h) + bv1) z * Wv2 + bv2) z

/-- The float word of one is the real number one. -/
theorem one_eq : one = (1 : EReal) := by
  simp [one, Ideal.ofBits, Ideal.ieee]
  rw [← EReal.coe_mul]; norm_num

/-- The mean as a quotient by max cnt 1: the same value, on every extended real. -/
theorem vertex_quotient (s : Fin 32 → EReal) (cnt : EReal) (Wv1 : Fin 32 → EReal) (bv1 Wv2 bv2 : EReal) :
    max (max ((∑ h : Fin 32, Ideal.div (s h) (max cnt one) * Wv1 h) + bv1) z * Wv2 + bv2) z
      = vertex s cnt Wv1 bv1 Wv2 bv2 := by
  unfold vertex
  have e : ∀ h : Fin 32, Ideal.div (s h) (max cnt one) = s h * Ideal.div one (max cnt one) := fun h => by
    rw [one_eq]; exact Cert.Lib.Quotient.div_max_one (s h) cnt
  simp only [e]

end Cert.Spec

end
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.KBody0.lean ====
/-
  The node network's kernel body at one entry of its output block.

  The body loads one sample's [1, 10000, 11] block of vertices, the transposed first weights [11, 32], the first bias
  row [1, 32], the transposed second weights [32, 32] and the second bias row, and stores
  relu (relu (x · A + b) · B + b') as a [1, 10000, 32] block. Changes of float format are the identity on the
  extended reals, each matrix product into the zero accumulator is the sum over the contracted coordinate, a bias
  row is read at its column whatever the row. So entry (u, n, h) of the stored block is the node network's hidden
  unit h of vertex n, the weights read transposed.
-/
import proofs.«139887_j78151224918081_2_alg».proof.Proof.Gen.KernelIdeal.Skeleton
import proofs.«139887_j78151224918081_2_alg».proof.Proof.Spec
import proofs.«139887_j78151224918081_2_alg».proof.Proof.LibMatmul
import Idealize.ShloMosaic.Lib.ValueIdx
import Idealize.ShloMosaic.Lib.ValueLayout
import Idealize.ShloMosaic.Lib.Pipeline.Value

open scoped BigOperators

noncomputable section

namespace Cert.KernelIdeal.KBody

open Idealize.ShloMosaic Idealize.ShloMosaic.ValueIdx
open Cert.KernelIdeal Cert.KernelIdeal.Gen

/-- The product of a [10000, 11] block by an [11, 32] matrix into zeros, at (p, e). -/
theorem mm_10000x11x32 {φ₁ φ₂ : FTy} (L : FVec Ideal S10000x11 φ₁) (R : FVec Ideal S11x32 φ₂) (p : Fin 10000) (e : Fin 32) :
    matmul dot_S10000x11_S11x32_S10000x32_1_0_0_1_n_n none L R (constant S10000x32 .f32 0x00000000#32) (ix2 p e)
      = ∑ f : Fin 11, L (ix2 p f) * R (ix2 f e) :=
  Cert.Lib.Matmul.matmul_plain_zero_apply (M := 10000) (K := 11) (N := 32) none L R p e

/-- The product of a [10000, 32] block by a [32, 32] matrix into zeros, at (p, e). -/
theorem mm_10000x32x32 {φ₁ φ₂ : FTy} (L : FVec Ideal S10000x32 φ₁) (R : FVec Ideal S32x32 φ₂) (p : Fin 10000) (e : Fin 32) :
    matmul dot_S10000x32_S32x32_S10000x32_1_0_0_1_n_n none L R (constant S10000x32 .f32 0x00000000#32) (ix2 p e)
      = ∑ f : Fin 32, L (ix2 p f) * R (ix2 f e) :=
  Cert.Lib.Matmul.matmul_plain_zero_apply (M := 10000) (K := 32) (N := 32) none L R p e

/-- Entry (u, n, h) of the block the node body stores. -/
theorem pay0_apply (x0 : Vec Ideal S1x10000x11 .f32) (x1 : Vec Ideal S11x32 .f32) (x2 : Vec Ideal S1x32 .f32)
    (x3 : Vec Ideal S32x32 .f32) (x4 : Vec Ideal S1x32 .f32) (u : Fin 1) (n : Fin 10000) (h : Fin 32) :
    k0_pay1 (F := Ideal) x0 x1 x2 x3 x4 (ix3 u n h)
      = Cert.Spec.node (fun f => x0 (ix3 (0 : Fin 1) n f)) (fun k f => x1 (ix2 f k)) (fun k => x2 (ix2 (0 : Fin 1) k))
          (fun o k => x3 (ix2 k o)) (fun o => x4 (ix2 (0 : Fin 1) o)) h := by
  unfold k0_pay1 Cert.Spec.node
  refine (shapeCast_ab_1ab_apply _ _ u n h).trans ?_
  simp only [truncf_apply, maximumf_apply, addf_apply, broadcast_apply, mm_10000x32x32, mm_10000x11x32, shapeCast_self,
    broadcastTo_1b_ab_apply, shapeCast_1ab_ab_apply]
  rfl

end Cert.KernelIdeal.KBody

end
-- ==== Proof.KReg0.lean ====
/-
  The node network's region: its output array after the run, as one function of the arrays the region finds.

  The grid has one point per sample b. Point b fetches block (b, 0, 0) of the vertices (one sample's [1, 10000, 11]
  slab) and the whole of each weight and bias array, and writes back block (b, 0, 0) of the output, a [1, 10000, 32]
  slab. An entry (b, n, h) of the output therefore lies in point b's block, at (0, n, h) inside it, and what is
  written there is the node network's hidden unit h of vertex n of sample b. The eight slabs tile the array.
-/
import proofs.«139887_j78151224918081_2_alg».proof.Proof.Gen.KernelIdeal.Frame
import proofs.«139887_j78151224918081_2_alg».proof.Proof.KBody0

set_option maxRecDepth 16384

open scoped BigOperators

noncomputable section

namespace Cert.KernelIdeal.KReg0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.KBody

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The hidden activations [8, 10000, 32] from the vertices, the TRANSPOSED weights (input unit, output unit) and
    the bias rows [1, 32], entry by entry. -/
def nodeArr (X : S8x10000x11.Idx → EReal) (A : S11x32.Idx → EReal) (b : S1x32.Idx → EReal) (B : S32x32.Idx → EReal)
    (b' : S1x32.Idx → EReal) : S8x10000x32.Idx → EReal := fun i =>
  Cert.Spec.node (fun f => X (ix3 (i 0 : Fin 8) (i 1 : Fin 10000) f)) (fun k f => A (ix2 f k)) (fun k => b (ix2 (0 : Fin 1) k))
    (fun o k => B (ix2 k o)) (fun o => b' (ix2 (0 : Fin 1) o)) (i 2 : Fin 32)

/-- What the body stores at a block entry j is the array's entry i, when the loaded blocks are the arrays' parts
    that i names: the vertices' row, and the weights and biases whole. -/
theorem pay0_blk (x0 : Vec Ideal S1x10000x11 .f32) (x1 : Vec Ideal S11x32 .f32) (x2 : Vec Ideal S1x32 .f32)
    (x3 : Vec Ideal S32x32 .f32) (x4 : Vec Ideal S1x32 .f32) (j : S1x10000x32.Idx)
    (X : S8x10000x11.Idx → EReal) (A : S11x32.Idx → EReal) (b : S1x32.Idx → EReal) (B : S32x32.Idx → EReal)
    (b' : S1x32.Idx → EReal) (i : S8x10000x32.Idx)
    (h0 : ∀ f : Fin 11, x0 (ix3 (0 : Fin 1) (j 1 : Fin 10000) f) = X (ix3 (i 0 : Fin 8) (i 1 : Fin 10000) f))
    (h1 : x1 = A) (h2 : x2 = b) (h3 : x3 = B) (h4 : x4 = b') (hj : (j 2 : Fin 32) = (i 2 : Fin 32)) :
    k0_pay1 (F := Ideal) x0 x1 x2 x3 x4 j = nodeArr X A b B b' i := by
  subst h1 h2 h3 h4
  obtain ⟨u, n, h, rfl⟩ : ∃ (u : Fin 1) (n : Fin 10000) (h : Fin 32), j = ix3 u n h := ⟨j 0, j 1, j 2, eq_ix3 j⟩
  have h0' : ∀ f : Fin 11, x0 (ix3 (0 : Fin 1) n f) = X (ix3 (i 0 : Fin 8) (i 1 : Fin 10000) f) := h0
  have hj' : h = (i 2 : Fin 32) := hj
  rw [pay0_apply]
  unfold nodeArr
  simp only [h0', hj']

/-- The printed index maps over the grid: the vertices' and the output's blocks move with the sample, the weights'
    and biases' stay at the origin. -/
theorem idx_facts0 : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What point t writes back is block t of the hidden activations of the arrays as the region finds them. -/
theorem flushed0 (c : Dev nD) (t : Fin cfg0.N) :
    (dat0 V c).flushed 5 t = ((cfg0.win 5).blk t).view.read (Elt Ideal)
      (nodeArr (V c main_arg0) (V c main_v0) (V c main_v8) (V c main_v1) (V c main_v9)) := by
  show (cfg0.win 5).cut (grid0.coords t) ((dat0 V c).after 5 t) = _
  rw [after0_5]
  unfold out0_5
  rw [View.canon_unit_zero hz3]
  simp only [View.ld_unit_zero (S := S1x10000x11) hz3, View.ld_unit_zero (S := S11x32) hz2,
    View.ld_unit_zero (S := S1x32) hz2, View.ld_unit_zero (S := S32x32) hz2]
  obtain ⟨a0, a1, a2, o0, o1, o2, w10, w11, w20, w21, w30, w31, w40, w41⟩ := idx_facts0 t
  funext j
  rw [View.read_apply]
  refine pay0_blk _ _ _ _ _ j _ _ _ _ _ (((cfg0.win 5).blk t).view.emb j) ?_ ?_ ?_ ?_ ?_ ?_
  · intro f
    show V c main_arg0 (((cfg0.win 0).blk t).view.emb (ix3 (0 : Fin 1) (j 1 : Fin 10000) f)) = V c main_arg0 _
    refine congrArg _ ?_
    funext a; apply Fin.ext
    have hj0 : (j 0).val < 1 := (j 0).isLt
    match a with
    | ⟨0, _⟩ => show win0_0.index t (0 : Fin 3) * 1 + 1 * 0 = win0_5.index t (0 : Fin 3) * 1 + 1 * (j 0).val; omega
    | ⟨1, _⟩ => show win0_0.index t (1 : Fin 3) * 10000 + 1 * (j 1).val = win0_5.index t (1 : Fin 3) * 10000 + 1 * (j 1).val; omega
    | ⟨2, _⟩ => show win0_0.index t (2 : Fin 3) * 11 + 1 * f.val = f.val; omega
  · funext y
    show V c main_v0 (((cfg0.win 1).blk t).view.emb y) = V c main_v0 y
    refine congrArg _ ?_
    funext a; apply Fin.ext
    match a with
    | ⟨0, _⟩ => show win0_1.index t (0 : Fin 2) * 11 + 1 * (y 0).val = (y 0).val; omega
    | ⟨1, _⟩ => show win0_1.index t (1 : Fin 2) * 32 + 1 * (y 1).val = (y 1).val; omega
  · funext y
    show V c main_v8 (((cfg0.win 2).blk t).view.emb y) = V c main_v8 y
    refine congrArg _ ?_
    funext a; apply Fin.ext
    match a with
    | ⟨0, _⟩ => show win0_2.index t (0 : Fin 2) * 1 + 1 * (y 0).val = (y 0).val; omega
    | ⟨1, _⟩ => show win0_2.index t (1 : Fin 2) * 32 + 1 * (y 1).val = (y 1).val; omega
  · funext y
    show V c main_v1 (((cfg0.win 3).blk t).view.emb y) = V c main_v1 y
    refine congrArg _ ?_
    funext a; apply Fin.ext
    match a with
    | ⟨0, _⟩ => show win0_3.index t (0 : Fin 2) * 32 + 1 * (y 0).val = (y 0).val; omega
    | ⟨1, _⟩ => show win0_3.index t (1 : Fin 2) * 32 + 1 * (y 1).val = (y 1).val; omega
  · funext y
    show V c main_v9 (((cfg0.win 4).blk t).view.emb y) = V c main_v9 y
    refine congrArg _ ?_
    funext a; apply Fin.ext
    match a with
    | ⟨0, _⟩ => show win0_4.index t (0 : Fin 2) * 1 + 1 * (y 0).val = (y 0).val; omega
    | ⟨1, _⟩ => show win0_4.index t (1 : Fin 2) * 32 + 1 * (y 1).val = (y 1).val; omega
  · apply Fin.ext
    show (j 2).val = win0_5.index t (2 : Fin 3) * 32 + 1 * (j 2).val
    omega

/-- An index of the output array is in point t's block iff each coordinate is in the block's range on its axis. -/
theorem mem_blk0 (t : Fin cfg0.N) (i : S8x10000x32.Idx) :
    i ∈ ((cfg0.win 5).blk t).view.set ↔ ∀ a : Fin 3, win0_5.index t a * S1x10000x32.size a ≤ (i a).val
      ∧ (i a).val < win0_5.index t a * S1x10000x32.size a + S1x10000x32.size a := by
  show i ∈ ((View.whole main_v14).slice (win0_5.rect t)).set ↔ _
  rw [View.set_slice_whole, Rect.mem_set_unit]
  exact Iff.rfl

/-- Every entry of the output lies in the block of the point of its sample. -/
theorem cover0 (i : S8x10000x32.Idx) :
    ∃ t : Fin cfg0.N, (cfg0.win 5).flush t = true ∧ i ∈ ((cfg0.win 5).blk t).view.set := by
  have hi0 : (i 0).val < 8 := (i 0).isLt
  have hi1 : (i 1).val < 10000 := (i 1).isLt
  have hi2 : (i 2).val < 32 := (i 2).isLt
  have hN : grid0.N = 8 := N_0
  have ht : (i 0).val < cfg0.N := by show (i 0).val < grid0.N; omega
  obtain ⟨t, htv⟩ : ∃ t : Fin cfg0.N, t.val = (i 0).val := ⟨⟨(i 0).val, ht⟩, rfl⟩
  refine ⟨t, flush0_5 t, ?_⟩
  rw [mem_blk0]
  obtain ⟨a0, a1, a2, o0, o1, o2, -⟩ := idx_facts0 t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 10000 ≤ (i 1).val ∧ (i 1).val < win0_5.index t (1 : Fin 3) * 10000 + 10000; omega
  | ⟨2, _⟩ => show win0_5.index t (2 : Fin 3) * 32 ≤ (i 2).val ∧ (i 2).val < win0_5.index t (2 : Fin 3) * 32 + 32; omega

/-- The output array after the region: the hidden activations of the arrays as the region finds them. -/
theorem final0 (c : Dev nD) :
    (dat0 V c).arrAt 5 cfg0.N = nodeArr (V c main_arg0) (V c main_v0) (V c main_v8) (V c main_v1) (V c main_v9) :=
  (dat0 V c).arrAt_eq_of_cover 5 _ (fun t _ => flushed0 V c t) cover0

end Cert.KernelIdeal.KReg0

end
-- ==== Proof.SpecK.lean ====
/-
  The edge and vertex networks in the arrangement the kernel's bodies compute them in.

  The edge body receives the two halves of the first edge weights as two separate [32, 32] matrices; the vertex
  body receives the reciprocal of max cnt 1 as a number. Both are the networks of the specification, read at the
  halves We1[:, :32], We1[:, 32:] and at 1 / max cnt 1, by unfolding.
-/
import proofs.«139887_j78151224918081_2_alg».proof.Proof.Spec

open scoped BigOperators

noncomputable section

namespace Cert.Spec

open Idealize.ShloMosaic

/-- One message unit from the two end points' hidden vectors and the two halves U0, U1 of the first weights, each
    indexed (output unit, input unit). -/
def edge2 (g0 g1 : Fin 32 → EReal) (U0 U1 : Fin 32 → Fin 32 → EReal) (be1 : Fin 32 → EReal)
    (We2 : Fin 32 → Fin 32 → EReal) (be2 : Fin 32 → EReal) (o : Fin 32) : EReal :=
  max (∑ k : Fin 32, max ((∑ j : Fin 32, g0 j * U0 k j) + (∑ j : Fin 32, g1 j * U1 k j) + be1 k) z * We2 o k + be2 o) z

theorem edge_eq_edge2 (g0 g1 : Fin 32 → EReal) (We1 : Fin 32 → Fin 64 → EReal) (be1 : Fin 32 → EReal)
    (We2 : Fin 32 → Fin 32 → EReal) (be2 : Fin 32 → EReal) (o : Fin 32) :
    edge g0 g1 We1 be1 We2 be2 o
      = edge2 g0 g1 (fun k j => We1 k (Fin.castAdd 32 j)) (fun k j => We1 k (Fin.natAdd 32 j)) be1 We2 be2 o := rfl

/-- A vertex's read-out from its summed messages and a factor r standing for the reciprocal in-degree. -/
def vertexK (s : Fin 32 → EReal) (r : EReal) (Wv1 : Fin 32 → EReal) (bv1 Wv2 bv2 : EReal) : EReal :=
  max (max ((∑ h : Fin 32, (s h * r) * Wv1 h) + bv1) z * Wv2 + bv2) z

theorem vertex_eq_vertexK (s : Fin 32 → EReal) (cnt : EReal) (Wv1 : Fin 32 → EReal) (bv1 Wv2 bv2 : EReal) :
    vertex s cnt Wv1 bv1 Wv2 bv2 = vertexK s (Ideal.div one (max cnt one)) Wv1 bv1 Wv2 bv2 := rfl

end Cert.Spec

end
-- ==== Proof.KBody1.lean ====
/-
  The edge network's kernel body at one entry of its output block.

  The body loads a [1, 10000, 32] block of each end point's gathered hidden vectors, the two transposed halves of the
  first edge weights [32, 32], the first bias row, the transposed second weights and the second bias row, and stores
  relu (relu (g0 · A0 + g1 · A1 + b) · B + b') as a [1, 10000, 32] block. Entry (u, e, o) of the stored block is the
  edge network's message unit o of edge e of the block, the weights read transposed.
-/
import proofs.«139887_j78151224918081_2_alg».proof.Proof.Gen.KernelIdeal.Skeleton
import proofs.«139887_j78151224918081_2_alg».proof.Proof.SpecK
import proofs.«139887_j78151224918081_2_alg».proof.Proof.LibMatmul
import Idealize.ShloMosaic.Lib.ValueIdx
import Idealize.ShloMosaic.Lib.ValueLayout
import Idealize.ShloMosaic.Lib.Pipeline.Value

open scoped BigOperators

noncomputable section

namespace Cert.KernelIdeal.KBody

open Idealize.ShloMosaic Idealize.ShloMosaic.ValueIdx
open Cert.KernelIdeal Cert.KernelIdeal.Gen

/-- The product of a [10000, 32] block by a [32, 32] matrix into zeros, at (p, e). -/
theorem mm1_10000x32x32 {φ₁ φ₂ : FTy} (L : FVec Ideal S10000x32 φ₁) (R : FVec Ideal S32x32 φ₂) (p : Fin 10000) (e : Fin 32) :
    matmul dot_S10000x32_S32x32_S10000x32_1_0_0_1_n_n none L R (constant S10000x32 .f32 0x00000000#32) (ix2 p e)
      = ∑ f : Fin 32, L (ix2 p f) * R (ix2 f e) :=
  Cert.Lib.Matmul.matmul_plain_zero_apply (M := 10000) (K := 32) (N := 32) none L R p e

/-- Entry (u, e, o) of the block the edge body stores. -/
theorem pay1_apply (x0 x1 : Vec Ideal S1x10000x32 .bf16) (x2 x3 : Vec Ideal S32x32 .f32) (x4 : Vec Ideal S1x32 .f32)
    (x5 : Vec Ideal S32x32 .f32) (x6 : Vec Ideal S1x32 .f32) (u : Fin 1) (e : Fin 10000) (o : Fin 32) :
    k1_pay1 (F := Ideal) x0 x1 x2 x3 x4 x5 x6 (ix3 u e o)
      = Cert.Spec.edge2 (fun j => x0 (ix3 (0 : Fin 1) e j)) (fun j => x1 (ix3 (0 : Fin 1) e j)) (fun k j => x2 (ix2 j k))
          (fun k j => x3 (ix2 j k)) (fun k => x4 (ix2 (0 : Fin 1) k)) (fun o k => x5 (ix2 k o)) (fun o => x6 (ix2 (0 : Fin 1) o)) o := by
  unfold k1_pay1 Cert.Spec.edge2
  refine (shapeCast_ab_1ab_apply _ _ u e o).trans ?_
  simp only [truncf_apply, maximumf_apply, addf_apply, broadcast_apply, mm1_10000x32x32, shapeCast_self,
    broadcastTo_1b_ab_apply, shapeCast_1ab_ab_apply]
  rfl

end Cert.KernelIdeal.KBody

end
-- ==== Proof.KReg1.lean ====
/-
  The edge network's region: its output array after the run, as one function of the arrays the region finds.

  The grid has one point per sample b and per block e of 10000 edges, 8 x 32 = 256 points, point t being
  (t / 32, t % 32). Point (b, e) fetches block (b, e, 0) of each end point's gathered hidden vectors (a
  [1, 10000, 32] slab) and the whole of each weight and bias array, and writes back block (b, e, 0) of the messages.
  Entry (b, q, o) of the messages lies in the block of point (b, q / 10000), at (0, q % 10000, o) inside it, and what
  is written there is the edge network's message unit o of edge q of sample b. The 256 slabs tile the array.
-/
import proofs.«139887_j78151224918081_2_alg».proof.Proof.Gen.KernelIdeal.Frame
import proofs.«139887_j78151224918081_2_alg».proof.Proof.KBody1

set_option maxRecDepth 16384

open scoped BigOperators

noncomputable section

namespace Cert.KernelIdeal.KReg1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.KBody

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The messages [8, 320000, 32] from the two gathered arrays, the TRANSPOSED halves of the first weights, the
    transposed second weights and the bias rows, entry by entry. -/
def edgeArr (G0 G1 : S8x320000x32.Idx → EReal) (A0 A1 : S32x32.Idx → EReal) (b : S1x32.Idx → EReal)
    (B : S32x32.Idx → EReal) (b' : S1x32.Idx → EReal) : S8x320000x32.Idx → EReal := fun i =>
  Cert.Spec.edge2 (fun q => G0 (ix3 (i 0 : Fin 8) (i 1 : Fin 320000) q)) (fun q => G1 (ix3 (i 0 : Fin 8) (i 1 : Fin 320000) q))
    (fun k q => A0 (ix2 q k)) (fun k q => A1 (ix2 q k)) (fun k => b (ix2 (0 : Fin 1) k))
    (fun o k => B (ix2 k o)) (fun o => b' (ix2 (0 : Fin 1) o)) (i 2 : Fin 32)

/-- What the body stores at a block entry j is the array's entry i, when the loaded blocks are the arrays' parts
    that i names: the two gathered rows, and the weights and biases whole. -/
theorem pay1_blk (x0 x1 : Vec Ideal S1x10000x32 .bf16) (x2 x3 : Vec Ideal S32x32 .f32) (x4 : Vec Ideal S1x32 .f32)
    (x5 : Vec Ideal S32x32 .f32) (x6 : Vec Ideal S1x32 .f32) (j : S1x10000x32.Idx)
    (G0 G1 : S8x320000x32.Idx → EReal) (A0 A1 : S32x32.Idx → EReal) (b : S1x32.Idx → EReal)
    (B : S32x32.Idx → EReal) (b' : S1x32.Idx → EReal) (i : S8x320000x32.Idx)
    (h0 : ∀ q : Fin 32, x0 (ix3 (0 : Fin 1) (j 1 : Fin 10000) q) = G0 (ix3 (i 0 : Fin 8) (i 1 : Fin 320000) q))
    (h1 : ∀ q : Fin 32, x1 (ix3 (0 : Fin 1) (j 1 : Fin 10000) q) = G1 (ix3 (i 0 : Fin 8) (i 1 : Fin 320000) q))
    (h2 : x2 = A0) (h3 : x3 = A1) (h4 : x4 = b) (h5 : x5 = B) (h6 : x6 = b') (hj : (j 2 : Fin 32) = (i 2 : Fin 32)) :
    k1_pay1 (F := Ideal) x0 x1 x2 x3 x4 x5 x6 j = edgeArr G0 G1 A0 A1 b B b' i := by
  subst h2 h3 h4 h5 h6
  obtain ⟨u, e, o, rfl⟩ : ∃ (u : Fin 1) (e : Fin 10000) (o : Fin 32), j = ix3 u e o := ⟨j 0, j 1, j 2, eq_ix3 j⟩
  have h0' : ∀ q : Fin 32, x0 (ix3 (0 : Fin 1) e q) = G0 (ix3 (i 0 : Fin 8) (i 1 : Fin 320000) q) := h0
  have h1' : ∀ q : Fin 32, x1 (ix3 (0 : Fin 1) e q) = G1 (ix3 (i 0 : Fin 8) (i 1 : Fin 320000) q) := h1
  have hj' : o = (i 2 : Fin 32) := hj
  rw [pay1_apply]
  unfold edgeArr
  simp only [h0', h1', hj']

/-- The printed index maps over the grid: the gathered arrays' and the output's blocks are at (t / 32, t % 32, 0),
    the weights' and biases' at the origin. -/
theorem idx_facts1 : ∀ t : Fin cfg1.N,
    win1_0.index t (0 : Fin 3) = t.val / 32 ∧ win1_0.index t (1 : Fin 3) = t.val % 32 ∧ win1_0.index t (2 : Fin 3) = 0
    ∧ win1_1.index t (0 : Fin 3) = t.val / 32 ∧ win1_1.index t (1 : Fin 3) = t.val % 32 ∧ win1_1.index t (2 : Fin 3) = 0
    ∧ win1_7.index t (0 : Fin 3) = t.val / 32 ∧ win1_7.index t (1 : Fin 3) = t.val % 32 ∧ win1_7.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- What point t writes back is block t of the messages of the arrays as the region finds them. -/
theorem flushed1 (c : Dev nD) (t : Fin cfg1.N) :
    (dat1 V c).flushed 7 t = ((cfg1.win 7).blk t).view.read (Elt Ideal)
      (edgeArr (V c main_v23) (V c main_v32) (V c main_v3) (V c main_v5) (V c main_v10) (V c main_v6) (V c main_v11)) := by
  show (cfg1.win 7).cut (grid1.coords t) ((dat1 V c).after 7 t) = _
  rw [after1_7]
  unfold out1_7
  rw [View.canon_unit_zero hz3]
  simp only [View.ld_unit_zero (S := S1x10000x32) hz3, View.ld_unit_zero (S := S1x32) hz2, View.ld_unit_zero (S := S32x32) hz2]
  obtain ⟨a0, a1, a2, b0, b1, b2, o0, o1, o2, w20, w21, w30, w31, w40, w41, w50, w51, w60, w61⟩ := idx_facts1 t
  funext j
  rw [View.read_apply]
  refine pay1_blk _ _ _ _ _ _ _ j _ _ _ _ _ _ _ (((cfg1.win 7).blk t).view.emb j) ?_ ?_ ?_ ?_ ?_ ?_ ?_ ?_
  · intro q
    show V c main_v23 (((cfg1.win 0).blk t).view.emb (ix3 (0 : Fin 1) (j 1 : Fin 10000) q)) = V c main_v23 _
    refine congrArg _ ?_
    funext a; apply Fin.ext
    have hj0 : (j 0).val < 1 := (j 0).isLt
    match a with
    | ⟨0, _⟩ => show win1_0.index t (0 : Fin 3) * 1 + 1 * 0 = win1_7.index t (0 : Fin 3) * 1 + 1 * (j 0).val; omega
    | ⟨1, _⟩ => show win1_0.index t (1 : Fin 3) * 10000 + 1 * (j 1).val = win1_7.index t (1 : Fin 3) * 10000 + 1 * (j 1).val; omega
    | ⟨2, _⟩ => show win1_0.index t (2 : Fin 3) * 32 + 1 * q.val = q.val; omega
  · intro q
    show V c main_v32 (((cfg1.win 1).blk t).view.emb (ix3 (0 : Fin 1) (j 1 : Fin 10000) q)) = V c main_v32 _
    refine congrArg _ ?_
    funext a; apply Fin.ext
    have hj0 : (j 0).val < 1 := (j 0).isLt
    match a with
    | ⟨0, _⟩ => show win1_1.index t (0 : Fin 3) * 1 + 1 * 0 = win1_7.index t (0 : Fin 3) * 1 + 1 * (j 0).val; omega
    | ⟨1, _⟩ => show win1_1.index t (1 : Fin 3) * 10000 + 1 * (j 1).val = win1_7.index t (1 : Fin 3) * 10000 + 1 * (j 1).val; omega
    | ⟨2, _⟩ => show win1_1.index t (2 : Fin 3) * 32 + 1 * q.val = q.val; omega
  · funext y
    show V c main_v3 (((cfg1.win 2).blk t).view.emb y) = V c main_v3 y
    refine congrArg _ ?_
    funext a; apply Fin.ext
    match a with
    | ⟨0, _⟩ => show win1_2.index t (0 : Fin 2) * 32 + 1 * (y 0).val = (y 0).val; omega
    | ⟨1, _⟩ => show win1_2.index t (1 : Fin 2) * 32 + 1 * (y 1).val = (y 1).val; omega
  · funext y
    show V c main_v5 (((cfg1.win 3).blk t).view.emb y) = V c main_v5 y
    refine congrArg _ ?_
    funext a; apply Fin.ext
    match a with
    | ⟨0, _⟩ => show win1_3.index t (0 : Fin 2) * 32 + 1 * (y 0).val = (y 0).val; omega
    | ⟨1, _⟩ => show win1_3.index t (1 : Fin 2) * 32 + 1 * (y 1).val = (y 1).val; omega
  · funext y
    show V c main_v10 (((cfg1.win 4).blk t).view.emb y) = V c main_v10 y
    refine congrArg _ ?_
    funext a; apply Fin.ext
    match a with
    | ⟨0, _⟩ => show win1_4.index t (0 : Fin 2) * 1 + 1 * (y 0).val = (y 0).val; omega
    | ⟨1, _⟩ => show win1_4.index t (1 : Fin 2) * 32 + 1 * (y 1).val = (y 1).val; omega
  · funext y
    show V c main_v6 (((cfg1.win 5).blk t).view.emb y) = V c main_v6 y
    refine congrArg _ ?_
    funext a; apply Fin.ext
    match a with
    | ⟨0, _⟩ => show win1_5.index t (0 : Fin 2) * 32 + 1 * (y 0).val = (y 0).val; omega
    | ⟨1, _⟩ => show win1_5.index t (1 : Fin 2) * 32 + 1 * (y 1).val = (y 1).val; omega
  · funext y
    show V c main_v11 (((cfg1.win 6).blk t).view.emb y) = V c main_v11 y
    refine congrArg _ ?_
    funext a; apply Fin.ext
    match a with
    | ⟨0, _⟩ => show win1_6.index t (0 : Fin 2) * 1 + 1 * (y 0).val = (y 0).val; omega
    | ⟨1, _⟩ => show win1_6.index t (1 : Fin 2) * 32 + 1 * (y 1).val = (y 1).val; omega
  · apply Fin.ext
    show (j 2).val = win1_7.index t (2 : Fin 3) * 32 + 1 * (j 2).val
    omega

/-- An index of the output array is in point t's block iff each coordinate is in the block's range on its axis. -/
theorem mem_blk1 (t : Fin cfg1.N) (i : S8x320000x32.Idx) :
    i ∈ ((cfg1.win 7).blk t).view.set ↔ ∀ a : Fin 3, win1_7.index t a * S1x10000x32.size a ≤ (i a).val
      ∧ (i a).val < win1_7.index t a * S1x10000x32.size a + S1x10000x32.size a := by
  show i ∈ ((View.whole main_v33).slice (win1_7.rect t)).set ↔ _
  rw [View.set_slice_whole, Rect.mem_set_unit]
  exact Iff.rfl

/-- Every entry (b, q, o) of the messages lies in the block of point (b, q / 10000). -/
theorem cover1 (i : S8x320000x32.Idx) :
    ∃ t : Fin cfg1.N, (cfg1.win 7).flush t = true ∧ i ∈ ((cfg1.win 7).blk t).view.set := by
  have hi0 : (i 0).val < 8 := (i 0).isLt
  have hi1 : (i 1).val < 320000 := (i 1).isLt
  have hi2 : (i 2).val < 32 := (i 2).isLt
  have hN : grid1.N = 256 := N_1
  have ht : (i 0).val * 32 + (i 1).val / 10000 < cfg1.N := by show _ < grid1.N; omega
  obtain ⟨t, htv⟩ : ∃ t : Fin cfg1.N, t.val = (i 0).val * 32 + (i 1).val / 10000 := ⟨⟨_, ht⟩, rfl⟩
  refine ⟨t, flush1_7 t, ?_⟩
  rw [mem_blk1]
  obtain ⟨-, -, -, -, -, -, o0, o1, o2, -⟩ := idx_facts1 t
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 10000 ≤ (i 1).val ∧ (i 1).val < win1_7.index t (1 : Fin 3) * 10000 + 10000; omega
  | ⟨2, _⟩ => show win1_7.index t (2 : Fin 3) * 32 ≤ (i 2).val ∧ (i 2).val < win1_7.index t (2 : Fin 3) * 32 + 32; omega

/-- The output array after the region: the messages of the arrays as the region finds them. -/
theorem final1 (c : Dev nD) :
    (dat1 V c).arrAt 7 cfg1.N
      = edgeArr (V c main_v23) (V c main_v32) (V c main_v3) (V c main_v5) (V c main_v10) (V c main_v6) (V c main_v11) :=
  (dat1 V c).arrAt_eq_of_cover 7 _ (fun t _ => flushed1 V c t) cover1

end Cert.KernelIdeal.KReg1

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.KBody2.lean ====
/-
  The vertex read-out's kernel body at one entry of its output block.

  The body loads one sample's [1, 10000, 32] block of summed messages, the column [10000, 1] of reciprocal in-degrees,
  the transposed read-out weights [32, 1] and three [1, 1] scalars, and stores
  relu (relu ((s * r) · w + c1) * c2 + c3) as a [1, 10000, 1] block: the reciprocal column is read at its row whatever
  the unit, the scalars at their one entry. Entry (u, n, v) of the stored block is vertex n's read-out.
-/
import proofs.«139887_j78151224918081_2_alg».proof.Proof.Gen.KernelIdeal.Skeleton
import proofs.«139887_j78151224918081_2_alg».proof.Proof.SpecK
import proofs.«139887_j78151224918081_2_alg».proof.Proof.LibMatmul
import proofs.«139887_j78151224918081_2_alg».proof.Proof.LibColumns
import Idealize.ShloMosaic.Lib.ValueIdx
import Idealize.ShloMosaic.Lib.ValueLayout
import Idealize.ShloMosaic.Lib.Pipeline.Value

open scoped BigOperators

noncomputable section

namespace Cert.KernelIdeal.KBody

open Idealize.ShloMosaic Idealize.ShloMosaic.ValueIdx
open Cert.KernelIdeal Cert.KernelIdeal.Gen

/-- The product of a [10000, 32] block by a [32, 1] column into zeros, at (p, e). -/
theorem mm2_10000x32x1 {φ₁ φ₂ : FTy} (L : FVec Ideal S10000x32 φ₁) (R : FVec Ideal S32x1 φ₂) (p : Fin 10000) (e : Fin 1) :
    matmul dot_S10000x32_S32x1_S10000x1_1_0_0_1_n_n none L R (constant S10000x1 .f32 0x00000000#32) (ix2 p e)
      = ∑ f : Fin 32, L (ix2 p f) * R (ix2 f e) :=
  Cert.Lib.Matmul.matmul_plain_zero_apply (M := 10000) (K := 32) (N := 1) none L R p e

/-- Entry (u, n, v) of the block the vertex body stores. -/
theorem pay2_apply (x0 : Vec Ideal S1x10000x32 .f32) (x1 : Vec Ideal S10000x1 .f32) (x2 : Vec Ideal S32x1 .f32)
    (x3 x4 x5 : Vec Ideal S1x1 .f32) (u : Fin 1) (n : Fin 10000) (v : Fin 1) :
    k2_pay1 (F := Ideal) x0 x1 x2 x3 x4 x5 (ix3 u n v)
      = Cert.Spec.vertexK (fun h => x0 (ix3 (0 : Fin 1) n h)) (x1 (ix2 n (0 : Fin 1))) (fun h => x2 (ix2 h v))
          (x3 (ix2 (0 : Fin 1) v)) (x4 (ix2 (0 : Fin 1) v)) (x5 (ix2 (0 : Fin 1) v)) := by
  unfold k2_pay1 Cert.Spec.vertexK
  refine (shapeCast_ab_1ab_apply _ _ u n v).trans ?_
  simp only [truncf_apply, maximumf_apply, addf_apply, mulf_apply, broadcast_apply, mm2_10000x32x1, shapeCast_self,
    broadcastTo_1b_ab_apply, shapeCast_1ab_ab_apply, Cert.Lib.Columns.broadcastTo_a1_ab_apply]
  rfl

end Cert.KernelIdeal.KBody

end
-- ==== Proof.KReg2.lean ====
/-
  The vertex read-out's region: its output array after the run, as one function of the arrays the region finds.

  The grid has one point per sample b. Point b fetches block (b, 0, 0) of the summed messages (a [1, 10000, 32] slab)
  and the whole of the reciprocal in-degree column, of the transposed read-out weights and of the three scalars, and
  writes back block (b, 0, 0) of the output, a [1, 10000, 1] slab. Entry (b, n, 0) of the output lies in point b's
  block and what is written there is vertex n's read-out in sample b. The eight slabs tile the array.
-/
import proofs.«139887_j78151224918081_2_alg».proof.Proof.Gen.KernelIdeal.Frame
import proofs.«139887_j78151224918081_2_alg».proof.Proof.KBody2

set_option maxRecDepth 16384

open scoped BigOperators

noncomputable section

namespace Cert.KernelIdeal.KReg2

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.KBody

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The read-outs [8, 10000, 1] from the summed messages, the reciprocal in-degrees [10000, 1], the TRANSPOSED
    read-out weights [32, 1] and the three scalars [1, 1], entry by entry. -/
def vertArr (S : S8x10000x32.Idx → EReal) (R : S10000x1.Idx → EReal) (Wt : S32x1.Idx → EReal)
    (c1 c2 c3 : S1x1.Idx → EReal) : S8x10000x1.Idx → EReal := fun i =>
  Cert.Spec.vertexK (fun h => S (ix3 (i 0 : Fin 8) (i 1 : Fin 10000) h)) (R (ix2 (i 1 : Fin 10000) (0 : Fin 1)))
    (fun h => Wt (ix2 h (0 : Fin 1))) (c1 (ix2 (0 : Fin 1) (0 : Fin 1))) (c2 (ix2 (0 : Fin 1) (0 : Fin 1)))
    (c3 (ix2 (0 : Fin 1) (0 : Fin 1)))

/-- What the body stores at a block entry j is the array's entry i, when the loaded blocks are the arrays' parts
    that i names: the summed messages' row, and the other arrays whole. -/
theorem pay2_blk (x0 : Vec Ideal S1x10000x32 .f32) (x1 : Vec Ideal S10000x1 .f32) (x2 : Vec Ideal S32x1 .f32)
    (x3 x4 x5 : Vec Ideal S1x1 .f32) (j : S1x10000x1.Idx)
    (S : S8x10000x32.Idx → EReal) (R : S10000x1.Idx → EReal) (Wt : S32x1.Idx → EReal) (c1 c2 c3 : S1x1.Idx → EReal)
    (i : S8x10000x1.Idx)
    (h0 : ∀ h : Fin 32, x0 (ix3 (0 : Fin 1) (j 1 : Fin 10000) h) = S (ix3 (i 0 : Fin 8) (i 1 : Fin 10000) h))
    (h1 : x1 = R) (h2 : x2 = Wt) (h3 : x3 = c1) (h4 : x4 = c2) (h5 : x5 = c3) (hj : (j 1 : Fin 10000) = (i 1 : Fin 10000)) :
    k2_pay1 (F := Ideal) x0 x1 x2 x3 x4 x5 j = vertArr S R Wt c1 c2 c3 i := by
  subst h1 h2 h3 h4 h5
  obtain ⟨u, n, v, rfl⟩ : ∃ (u : Fin 1) (n : Fin 10000) (v : Fin 1), j = ix3 u n v := ⟨j 0, j 1, j 2, eq_ix3 j⟩
  have hv : v = (0 : Fin 1) := Subsingleton.elim _ _
  subst hv
  have h0' : ∀ h : Fin 32, x0 (ix3 (0 : Fin 1) n h) = S (ix3 (i 0 : Fin 8) (i 1 : Fin 10000) h) := h0
  have hj' : n = (i 1 : Fin 10000) := hj
  rw [pay2_apply]
  unfold vertArr
  simp only [h0']
  rw [hj']

/-- The printed index maps over the grid: the summed messages' and the output's blocks move with the sample, the
    other arrays' stay at the origin. -/
theorem idx_facts2 : ∀ t : Fin cfg2.N,
    win2_0.index t (0 : Fin 3) = t.val ∧ win2_0.index t (1 : Fin 3) = 0 ∧ win2_0.index t (2 : Fin 3) = 0
    ∧ win2_6.index t (0 : Fin 3) = t.val ∧ win2_6.index t (1 : Fin 3) = 0 ∧ win2_6.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- What point t writes back is block t of the read-outs of the arrays as the region finds them. -/
theorem flushed2 (c : Dev nD) (t : Fin cfg2.N) :
    (dat2 V c).flushed 6 t = ((cfg2.win 6).blk t).view.read (Elt Ideal)
      (vertArr (V c main_v43) (V c main_v59) (V c main_v7) (V c main_v12) (V c main_arg12) (V c main_v13)) := by
  show (cfg2.win 6).cut (grid2.coords t) ((dat2 V c).after 6 t) = _
  rw [after2_6]
  unfold out2_6
  rw [View.canon_unit_zero hz3]
  simp only [View.ld_unit_zero (S := S1x10000x32) hz3, View.ld_unit_zero (S := S10000x1) hz2, View.ld_unit_zero (S := S32x1) hz2,
    View.ld_unit_zero (S := S1x1) hz2]
  obtain ⟨a0, a1, a2, o0, o1, o2, w10, w11, w20, w21, w30, w31, w40, w41, w50, w51⟩ := idx_facts2 t
  funext j
  rw [View.read_apply]
  refine pay2_blk _ _ _ _ _ _ j _ _ _ _ _ _ (((cfg2.win 6).blk t).view.emb j) ?_ ?_ ?_ ?_ ?_ ?_ ?_
  · intro h
    show V c main_v43 (((cfg2.win 0).blk t).view.emb (ix3 (0 : Fin 1) (j 1 : Fin 10000) h)) = V c main_v43 _
    refine congrArg _ ?_
    funext a; apply Fin.ext
    have hj0 : (j 0).val < 1 := (j 0).isLt
    match a with
    | ⟨0, _⟩ => show win2_0.index t (0 : Fin 3) * 1 + 1 * 0 = win2_6.index t (0 : Fin 3) * 1 + 1 * (j 0).val; omega
    | ⟨1, _⟩ => show win2_0.index t (1 : Fin 3) * 10000 + 1 * (j 1).val = win2_6.index t (1 : Fin 3) * 10000 + 1 * (j 1).val; omega
    | ⟨2, _⟩ => show win2_0.index t (2 : Fin 3) * 32 + 1 * h.val = h.val; omega
  · funext y
    show V c main_v59 (((cfg2.win 1).blk t).view.emb y) = V c main_v59 y
    refine congrArg _ ?_
    funext a; apply Fin.ext
    match a with
    | ⟨0, _⟩ => show win2_1.index t (0 : Fin 2) * 10000 + 1 * (y 0).val = (y 0).val; omega
    | ⟨1, _⟩ => show win2_1.index t (1 : Fin 2) * 1 + 1 * (y 1).val = (y 1).val; omega
  · funext y
    show V c main_v7 (((cfg2.win 2).blk t).view.emb y) = V c main_v7 y
    refine congrArg _ ?_
    funext a; apply Fin.ext
    match a with
    | ⟨0, _⟩ => show win2_2.index t (0 : Fin 2) * 32 + 1 * (y 0).val = (y 0).val; omega
    | ⟨1, _⟩ => show win2_2.index t (1 : Fin 2) * 1 + 1 * (y 1).val = (y 1).val; omega
  · funext y
    show V c main_v12 (((cfg2.win 3).blk t).view.emb y) = V c main_v12 y
    refine congrArg _ ?_
    funext a; apply Fin.ext
    match a with
    | ⟨0, _⟩ => show win2_3.index t (0 : Fin 2) * 1 + 1 * (y 0).val = (y 0).val; omega
    | ⟨1, _⟩ => show win2_3.index t (1 : Fin 2) * 1 + 1 * (y 1).val = (y 1).val; omega
  · funext y
    show V c main_arg12 (((cfg2.win 4).blk t).view.emb y) = V c main_arg12 y
    refine congrArg _ ?_
    funext a; apply Fin.ext
    match a with
    | ⟨0, _⟩ => show win2_4.index t (0 : Fin 2) * 1 + 1 * (y 0).val = (y 0).val; omega
    | ⟨1, _⟩ => show win2_4.index t (1 : Fin 2) * 1 + 1 * (y 1).val = (y 1).val; omega
  · funext y
    show V c main_v13 (((cfg2.win 5).blk t).view.emb y) = V c main_v13 y
    refine congrArg _ ?_
    funext a; apply Fin.ext
    match a with
    | ⟨0, _⟩ => show win2_5.index t (0 : Fin 2) * 1 + 1 * (y 0).val = (y 0).val; omega
    | ⟨1, _⟩ => show win2_5.index t (1 : Fin 2) * 1 + 1 * (y 1).val = (y 1).val; omega
  · apply Fin.ext
    show (j 1).val = win2_6.index t (1 : Fin 3) * 10000 + 1 * (j 1).val
    omega

/-- An index of the output array is in point t's block iff each coordinate is in the block's range on its axis. -/
theorem mem_blk2 (t : Fin cfg2.N) (i : S8x10000x1.Idx) :
    i ∈ ((cfg2.win 6).blk t).view.set ↔ ∀ a : Fin 3, win2_6.index t a * S1x10000x1.size a ≤ (i a).val
      ∧ (i a).val < win2_6.index t a * S1x10000x1.size a + S1x10000x1.size a := by
  show i ∈ ((View.whole main_v60).slice (win2_6.rect t)).set ↔ _
  rw [View.set_slice_whole, Rect.mem_set_unit]
  exact Iff.rfl

/-- Every entry of the output lies in the block of the point of its sample. -/
theorem cover2 (i : S8x10000x1.Idx) :
    ∃ t : Fin cfg2.N, (cfg2.win 6).flush t = true ∧ i ∈ ((cfg2.win 6).blk t).view.set := by
  have hi0 : (i 0).val < 8 := (i 0).isLt
  have hi1 : (i 1).val < 10000 := (i 1).isLt
  have hi2 : (i 2).val < 1 := (i 2).isLt
  have hN : grid2.N = 8 := N_2
  have ht : (i 0).val < cfg2.N := by show (i 0).val < grid2.N; omega
  obtain ⟨t, htv⟩ : ∃ t : Fin cfg2.N, t.val = (i 0).val := ⟨⟨(i 0).val, ht⟩, rfl⟩
  refine ⟨t, flush2_6 t, ?_⟩
  rw [mem_blk2]
  obtain ⟨a0, a1, a2, o0, o1, o2, -⟩ := idx_facts2 t
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 10000 ≤ (i 1).val ∧ (i 1).val < win2_6.index t (1 : Fin 3) * 10000 + 10000; omega
  | ⟨2, _⟩ => show win2_6.index t (2 : Fin 3) * 1 ≤ (i 2).val ∧ (i 2).val < win2_6.index t (2 : Fin 3) * 1 + 1; omega

/-- The output array after the region: the read-outs of the arrays as the region finds them. -/
theorem final2 (c : Dev nD) :
    (dat2 V c).arrAt 6 cfg2.N
      = vertArr (V c main_v43) (V c main_v59) (V c main_v7) (V c main_v12) (V c main_arg12) (V c main_v13) :=
  (dat2 V c).arrAt_eq_of_cover 6 _ (fun t _ => flushed2 V c t) cover2

end Cert.KernelIdeal.KReg2

end
-- ==== Proof.KModel.lean ====
/-
  The idealized kernel's result as one function of the model's arguments.

  Region by region, the closed form of a region's output array (over the arrays the region finds) is rewritten over
  the model's own arguments: the transposed weights are read back at (output unit, input unit), the bias rows at their
  entry, the two halves of the first edge weights as the first and the last 32 columns of the whole, and the
  reciprocal in-degree column as 1 / max (in-degree) 1. Chained through the boundaries this gives the kernel's
  result: the graph read-out of the vertex read-outs of the summed messages of the gathered hidden activations.
-/
import proofs.«139887_j78151224918081_2_alg».proof.Proof.KFold
import proofs.«139887_j78151224918081_2_alg».proof.Proof.KReg0
import proofs.«139887_j78151224918081_2_alg».proof.Proof.KReg1
import proofs.«139887_j78151224918081_2_alg».proof.Proof.KReg2
import proofs.«139887_j78151224918081_2_alg».proof.Proof.LibColumns
import Idealize.ShloMosaic.Lib.ValueLayout
import Idealize.ShloMosaic.Lib.Pipeline.Value

set_option maxRecDepth 16384

open scoped BigOperators

noncomputable section

namespace Cert.KernelIdeal.KModel

open Idealize.ShloMosaic Idealize.ShloMosaic.TcCoe Idealize.ShloMosaic.ValueIdx
open Idealize.SL.Sem
open Cert.KernelIdeal Cert.KernelIdeal.Gen Cert.KernelIdeal.KFold

/-! ## The model over its own arguments -/

/-- The hidden activations [8, 10000, 32]. -/
def hidden (x0 : (⟨S8x10000x11, .f32⟩ : BufTy).Contents (Elt Ideal)) (x2 : (⟨S32x11, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) : S8x10000x32.Idx → EReal := fun i =>
  Cert.Spec.node (fun f => x0 (ix3 (i 0 : Fin 8) (i 1 : Fin 10000) f)) (fun k f => x2 (ix2 k f)) (fun k => x3 (ix1 k))
    (fun o k => x4 (ix2 o k)) (fun o => x5 (ix1 o)) (i 2 : Fin 32)

/-- The messages [8, 320000, 32] from the hidden activations H gathered at the two end points. -/
def messages (H : S8x10000x32.Idx → EReal) (x1 : (⟨S2x320000, .i32⟩ : BufTy).Contents (Elt Ideal)) (x6 : (⟨S32x64, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal)) : S8x320000x32.Idx → EReal := fun i =>
  Cert.Spec.edge (fun q => gatherRows H (srcCol x1) (ix3 (i 0 : Fin 8) (i 1 : Fin 320000) q))
    (fun q => gatherRows H (dstCol x1) (ix3 (i 0 : Fin 8) (i 1 : Fin 320000) q))
    (fun k f => x6 (ix2 k f)) (fun k => x7 (ix1 k)) (fun o k => x8 (ix2 o k)) (fun o => x9 (ix1 o)) (i 2 : Fin 32)

/-- The vertex read-outs [8, 10000, 1] from the summed messages Sm and the in-degrees. -/
def readouts (Sm : S8x10000x32.Idx → EReal) (x1 : (⟨S2x320000, .i32⟩ : BufTy).Contents (Elt Ideal)) (x10 : (⟨S1x32, .f32⟩ : BufTy).Contents (Elt Ideal)) (x11 : (⟨S1, .f32⟩ : BufTy).Contents (Elt Ideal))
    (x12 : (⟨S1x1, .f32⟩ : BufTy).Contents (Elt Ideal)) (x13 : (⟨S1, .f32⟩ : BufTy).Contents (Elt Ideal)) : S8x10000x1.Idx → EReal := fun i =>
  Cert.Spec.vertex (fun h => Sm (ix3 (i 0 : Fin 8) (i 1 : Fin 10000) h)) (inDegree (dstCol x1) (ix1 (i 1 : Fin 10000)))
    (fun h => x10 (ix2 (0 : Fin 1) h)) (x11 (ix1 (0 : Fin 1))) (x12 (ix2 (0 : Fin 1) (0 : Fin 1))) (x13 (ix1 (0 : Fin 1)))

/-- The model's result [8, 1]. -/
def result (x0 : (⟨S8x10000x11, .f32⟩ : BufTy).Contents (Elt Ideal)) (x1 : (⟨S2x320000, .i32⟩ : BufTy).Contents (Elt Ideal)) (x2 : (⟨S32x11, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) (x6 : (⟨S32x64, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal)) (x10 : (⟨S1x32, .f32⟩ : BufTy).Contents (Elt Ideal)) (x11 : (⟨S1, .f32⟩ : BufTy).Contents (Elt Ideal))
    (x12 : (⟨S1x1, .f32⟩ : BufTy).Contents (Elt Ideal)) (x13 : (⟨S1, .f32⟩ : BufTy).Contents (Elt Ideal)) (x14 : (⟨S1x10000, .f32⟩ : BufTy).Contents (Elt Ideal)) (x15 : (⟨S1, .f32⟩ : BufTy).Contents (Elt Ideal)) :
    (⟨S8x1, .f32⟩ : BufTy).Contents (Elt Ideal) :=
  graphReadout (readouts (sumMessages (dstCol x1) (messages (hidden x0 x2 x3 x4 x5) x1 x6 x7 x8 x9)) x1 x10 x11 x12 x13) x14 x15

/-! ## Each region's closed form over the model's arguments -/

/-- An array of extended reals over a shape. -/
abbrev Arr (s : Shape) : Type := s.Idx → EReal

/-- The three networks depend on their weights only through their values. -/
theorem node_congr {x : Fin 11 → EReal} {W1 W1' : Fin 32 → Fin 11 → EReal} {b1 b1' : Fin 32 → EReal}
    {W2 W2' : Fin 32 → Fin 32 → EReal} {b2 b2' : Fin 32 → EReal} {h : Fin 32}
    (h1 : W1 = W1') (h2 : b1 = b1') (h3 : W2 = W2') (h4 : b2 = b2') :
    Cert.Spec.node x W1 b1 W2 b2 h = Cert.Spec.node x W1' b1' W2' b2' h := by subst h1 h2 h3 h4; rfl

theorem edge2_congr {g0 g1 : Fin 32 → EReal} {U0 U0' U1 U1' : Fin 32 → Fin 32 → EReal} {be1 be1' : Fin 32 → EReal}
    {We2 We2' : Fin 32 → Fin 32 → EReal} {be2 be2' : Fin 32 → EReal} {o : Fin 32}
    (h0 : U0 = U0') (h1 : U1 = U1') (h2 : be1 = be1') (h3 : We2 = We2') (h4 : be2 = be2') :
    Cert.Spec.edge2 g0 g1 U0 U1 be1 We2 be2 o = Cert.Spec.edge2 g0 g1 U0' U1' be1' We2' be2' o := by
  subst h0 h1 h2 h3 h4; rfl

theorem vertexK_congr {s : Fin 32 → EReal} {r r' : EReal} {w w' : Fin 32 → EReal} {c1 c1' c2 c2' c3 c3' : EReal}
    (hr : r = r') (hw : w = w') (h1 : c1 = c1') (h2 : c2 = c2') (h3 : c3 = c3') :
    Cert.Spec.vertexK s r w c1 c2 c3 = Cert.Spec.vertexK s r' w' c1' c2' c3' := by subst hr hw h1 h2 h3; rfl

/-- The printed transposes and bias rows, read at an entry. -/
theorem tr_11x32 (x : Arr S32x11) (f : Fin 11) (k : Fin 32) :
    transpose S11x32 [1, 0] x transposes_S32x11_S11x32_1_0 (ix2 f k) = x (ix2 k f) := transpose_ix2_apply x _ f k
theorem tr_32x32 (x : Arr S32x32) (q k : Fin 32) :
    transpose S32x32 [1, 0] x transposes_S32x32_S32x32_1_0 (ix2 q k) = x (ix2 k q) := transpose_ix2_apply x _ q k
theorem tr_32x1 (x : Arr S1x32) (h : Fin 32) (u : Fin 1) :
    transpose S32x1 [1, 0] x transposes_S1x32_S32x1_1_0 (ix2 h u) = x (ix2 u h) := transpose_ix2_apply x _ h u
theorem row_1x32 (x : Arr S32) (u : Fin 1) (k : Fin 32) :
    shapeCast S1x32 x shapeCasts_S32_S1x32 (ix2 u k) = x (ix1 k) := shapeCast_a_1a_apply x _ u k
theorem row_1x1 (x : Arr S1) (u v : Fin 1) :
    shapeCast S1x1 x shapeCasts_S1_S1x1 (ix2 u v) = x (ix1 v) := shapeCast_a_1a_apply x _ u v

theorem nodeArr_eq (x0 : Arr S8x10000x11) (x2 : Arr S32x11) (x3 : Arr S32)
    (x4 : Arr S32x32) (x5 : Arr S32) :
    KReg0.nodeArr x0 (transpose S11x32 [1, 0] x2 transposes_S32x11_S11x32_1_0) (shapeCast S1x32 x3 shapeCasts_S32_S1x32)
        (transpose S32x32 [1, 0] x4 transposes_S32x32_S32x32_1_0) (shapeCast S1x32 x5 shapeCasts_S32_S1x32)
      = hidden x0 x2 x3 x4 x5 := by
  funext i
  unfold KReg0.nodeArr hidden
  exact node_congr (funext fun k => funext fun f => tr_11x32 x2 f k) (funext fun k => row_1x32 x3 0 k)
    (funext fun o => funext fun k => tr_32x32 x4 k o) (funext fun o => row_1x32 x5 0 o)

/-- The first 32 columns of the first edge weights, at (k, q). -/
theorem cols_lo (X : Arr S32x64) (k q : Fin 32) :
    extractStridedSlice S32x32 ![0, 0] X slices_S32x64_S32x32_0_0 (ix2 k q) = X (ix2 k (Fin.castAdd 32 q)) :=
  slice2_axis1_apply 0 X _ k q (Fin.castAdd 32 q) (by simp)

/-- The last 32 columns, at (k, q). -/
theorem cols_hi (X : Arr S32x64) (k q : Fin 32) :
    extractStridedSlice S32x32 ![0, 32] X slices_S32x64_S32x32_0_32 (ix2 k q) = X (ix2 k (Fin.natAdd 32 q)) :=
  slice2_axis1_apply 32 X _ k q (Fin.natAdd 32 q) (Fin.coe_natAdd 32 q)

theorem edgeArr_eq (H : S8x10000x32.Idx → EReal) (x1 : (⟨S2x320000, .i32⟩ : BufTy).Contents (Elt Ideal)) (x6 : Arr S32x64) (x7 : Arr S32)
    (x8 : Arr S32x32) (x9 : Arr S32) :
    KReg1.edgeArr (gatherRows H (srcCol x1)) (gatherRows H (dstCol x1))
        (transpose S32x32 [1, 0] (extractStridedSlice S32x32 ![0, 0] x6 slices_S32x64_S32x32_0_0) transposes_S32x32_S32x32_1_0)
        (transpose S32x32 [1, 0] (extractStridedSlice S32x32 ![0, 32] x6 slices_S32x64_S32x32_0_32) transposes_S32x32_S32x32_1_0)
        (shapeCast S1x32 x7 shapeCasts_S32_S1x32) (transpose S32x32 [1, 0] x8 transposes_S32x32_S32x32_1_0)
        (shapeCast S1x32 x9 shapeCasts_S32_S1x32)
      = messages H x1 x6 x7 x8 x9 := by
  funext i
  unfold KReg1.edgeArr messages
  refine Eq.trans ?_ (Cert.Spec.edge_eq_edge2 _ _ _ _ _ _ _).symm
  exact edge2_congr
    (funext fun k => funext fun q => (tr_32x32 _ q k).trans (cols_lo x6 k q))
    (funext fun k => funext fun q => (tr_32x32 _ q k).trans (cols_hi x6 k q))
    (funext fun k => row_1x32 x7 0 k) (funext fun o => funext fun k => tr_32x32 x8 k o) (funext fun o => row_1x32 x9 0 o)

/-- One over the larger of a vector's entry and one, entry by entry (the vector left abstract). -/
theorem recip_of (D : (⟨S10000, .f32⟩ : BufTy).Contents (Elt Ideal)) (n : Fin 10000) :
    Host.divf (F := Ideal) (broadcastInDim S10000 ![] bcast_S_S10000 (constant (F := Ideal) S_ .f32 0x3F800000#32))
      (maximumf D (broadcastInDim S10000 ![] bcast_S_S10000 (constant (F := Ideal) S_ .f32 0x3F800000#32))) (ix1 n)
      = Ideal.div Cert.Spec.one (max (D (ix1 n)) Cert.Spec.one) := rfl

/-- The reciprocal column at vertex n is 1 / max (in-degree of n) 1. -/
theorem recip_apply (I : (⟨S320000x1, .i32⟩ : BufTy).Contents (Elt Ideal)) (n : Fin 10000) (u : Fin 1) :
    recipColumn I (ix2 n u) = Ideal.div Cert.Spec.one (max (inDegree I (ix1 n)) Cert.Spec.one) :=
  (Cert.Lib.Columns.shapeCast_a_a1_apply _ shapeCasts_S10000_S10000x1 n u).trans (recip_of (inDegree I) n)

theorem vertArr_eq (Sm : S8x10000x32.Idx → EReal) (x1 : (⟨S2x320000, .i32⟩ : BufTy).Contents (Elt Ideal)) (x10 : Arr S1x32) (x11 : Arr S1)
    (x12 : Arr S1x1) (x13 : Arr S1) :
    KReg2.vertArr Sm (recipColumn (dstCol x1)) (transpose S32x1 [1, 0] x10 transposes_S1x32_S32x1_1_0)
        (shapeCast S1x1 x11 shapeCasts_S1_S1x1) x12 (shapeCast S1x1 x13 shapeCasts_S1_S1x1)
      = readouts Sm x1 x10 x11 x12 x13 := by
  funext i
  obtain ⟨b, n, v, rfl⟩ : ∃ (b : Fin 8) (n : Fin 10000) (v : Fin 1), i = ix3 b n v := ⟨i 0, i 1, i 2, eq_ix3 i⟩
  show Cert.Spec.vertexK (fun h => Sm (ix3 b n h)) (recipColumn (dstCol x1) (ix2 n (0 : Fin 1)))
      (fun h => transpose S32x1 [1, 0] x10 transposes_S1x32_S32x1_1_0 (ix2 h (0 : Fin 1)))
      (shapeCast S1x1 x11 shapeCasts_S1_S1x1 (ix2 (0 : Fin 1) (0 : Fin 1))) (x12 (ix2 (0 : Fin 1) (0 : Fin 1)))
      (shapeCast S1x1 x13 shapeCasts_S1_S1x1 (ix2 (0 : Fin 1) (0 : Fin 1)))
    = Cert.Spec.vertex (fun h => Sm (ix3 b n h)) (inDegree (dstCol x1) (ix1 n)) (fun h => x10 (ix2 (0 : Fin 1) h))
      (x11 (ix1 (0 : Fin 1))) (x12 (ix2 (0 : Fin 1) (0 : Fin 1))) (x13 (ix1 (0 : Fin 1)))
  refine Eq.trans ?_ (Cert.Spec.vertex_eq_vertexK _ _ _ _ _ _).symm
  exact vertexK_congr (recip_apply (dstCol x1) n 0) (funext fun h => tr_32x1 x10 h 0) (row_1x1 x11 0 0) rfl (row_1x1 x13 0 0)

/-! ## The kernel's result -/

variable (m : (ℓ : Loc nD τ sig) → Buf (Elt Ideal) ℓ) (ρ : Dev nD → PrngReg) (c : Dev nD)

/-- The last boundary's contents of the result buffer: the model's result of the launch memory's arguments. -/
theorem kernel_value : W7 m ρ c (Proc.devRef .tc main_v72)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  -- the node region's output, at its exit
  have h14 : W2 m ρ c (Proc.devRef .tc main_v14) = hidden (m ((c : Thread nD τ).loc main_arg0)) (m ((c : Thread nD τ).loc main_arg2)) (m ((c : Thread nD τ).loc main_arg3)) (m ((c : Thread nD τ).loc main_arg4)) (m ((c : Thread nD τ).loc main_arg5)) := by
    refine ((W2_arr m ρ c 5 : W2 m ρ c (Proc.devRef .tc main_v14) = _).trans (KReg0.final0 (V1 m ρ) c)).trans ?_
    have e0 : V1 m ρ c main_arg0 = _ := at1_main_arg0 m ρ c
    have e1 : V1 m ρ c main_v0 = _ := at1_main_v0 m ρ c
    have e2 : V1 m ρ c main_v8 = _ := at1_main_v8 m ρ c
    have e3 : V1 m ρ c main_v1 = _ := at1_main_v1 m ρ c
    have e4 : V1 m ρ c main_v9 = _ := at1_main_v9 m ρ c
    rw [e0, e1, e2, e3, e4]
    exact nodeArr_eq _ _ _ _ _
  -- the edge region's output, at its exit
  have h33 : W4 m ρ c (Proc.devRef .tc main_v33)
      = messages (hidden (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9)) := by
    refine ((W4_arr m ρ c 7 : W4 m ρ c (Proc.devRef .tc main_v33) = _).trans (KReg1.final1 (V3 m ρ) c)).trans ?_
    have e0 : V3 m ρ c main_v23 = _ := at3_main_v23 m ρ c
    have e1 : V3 m ρ c main_v32 = _ := at3_main_v32 m ρ c
    have e2 : V3 m ρ c main_v3 = _ := at3_main_v3 m ρ c
    have e3 : V3 m ρ c main_v5 = _ := at3_main_v5 m ρ c
    have e4 : V3 m ρ c main_v10 = _ := at3_main_v10 m ρ c
    have e5 : V3 m ρ c main_v6 = _ := at3_main_v6 m ρ c
    have e6 : V3 m ρ c main_v11 = _ := at3_main_v11 m ρ c
    rw [e0, e1, e2, e3, e4, e5, e6, h14, at2_main_arg1 m ρ c]
    exact edgeArr_eq _ _ _ _ _ _
  -- the vertex region's output, at its exit
  have h60 : W6 m ρ c (Proc.devRef .tc main_v60)
      = readouts (sumMessages (dstCol (m ((c : Thread nD τ).loc main_arg1))) (messages (hidden (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9))))
          (m ((c : Thread nD τ).loc main_arg1)) (m ((c : Thread nD τ).loc main_arg10)) (m ((c : Thread nD τ).loc main_arg11)) (m ((c : Thread nD τ).loc main_arg12)) (m ((c : Thread nD τ).loc main_arg13)) := by
    refine ((W6_arr m ρ c 6 : W6 m ρ c (Proc.devRef .tc main_v60) = _).trans (KReg2.final2 (V5 m ρ) c)).trans ?_
    have e0 : V5 m ρ c main_v43 = _ := at5_main_v43 m ρ c
    have e1 : V5 m ρ c main_v59 = _ := at5_main_v59 m ρ c
    have e2 : V5 m ρ c main_v7 = _ := at5_main_v7 m ρ c
    have e3 : V5 m ρ c main_v12 = _ := at5_main_v12 m ρ c
    have e4 : V5 m ρ c main_arg12 = _ := at5_main_arg12 m ρ c
    have e5 : V5 m ρ c main_v13 = _ := at5_main_v13 m ρ c
    rw [e0, e1, e2, e3, e4, e5, h33, at4_main_arg1 m ρ c]
    exact vertArr_eq _ _ _ _ _ _
  exact (at7_main_v72 m ρ c).trans
    (congr (congr (congrArg graphReadout h60) (at6_main_arg14 m ρ c)) (at6_main_arg15 m ρ c))

end Cert.KernelIdeal.KModel

end
-- ==== Proof.RValue.lean ====
/-
  The reference program's three stages, each read at one index, are the three small networks of the
  specification applied to the previous stage's array read along the contracted coordinate and to the
  weight arguments read at (output unit, input unit).

  * the node stage: two dense layers, each followed by the maximum with the float zero, of one vertex's
    11 features;
  * the edge stage: the same of the two gathered end points' hidden vectors joined along the last axis
    (the sum over the 64 joined coordinates is the sum over the first 32 plus the sum over the last 32);
  * the vertex stage: the summed messages divided by the larger of the in-degree and one (a quotient by
    a nonzero number is the product with its reciprocal), a dense layer to one unit, a scaling and a shift,
    each followed by the maximum with the float zero.

  The gathers and the scatter-adds are not opened: they stay as the values the generated module names.
-/
import proofs.«139887_j78151224918081_2_alg».proof.Proof.Gen.ReferenceIdeal.Read
import proofs.«139887_j78151224918081_2_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.ReferenceIdeal.RefValue

open Idealize.ShloMosaic Idealize.ShloMosaic.ValueIdx Cert.ReferenceIdeal Cert.ReferenceIdeal.Read

/-- The node stage at an index: the node network of the vertex's 11 features. -/
theorem ref_node (x0 : (⟨S8x10000x11, .f32⟩ : BufTy).Contents (Elt Ideal)) (x2 : (⟨S32x11, .f32⟩ : BufTy).Contents (Elt Ideal))
    (x3 : (⟨S32, .f32⟩ : BufTy).Contents (Elt Ideal)) (x4 : (⟨S32x32, .f32⟩ : BufTy).Contents (Elt Ideal))
    (x5 : (⟨S32, .f32⟩ : BufTy).Contents (Elt Ideal)) (i : S8x10000x32.Idx) :
    val_main_v9 (F := Ideal) x0 x2 x3 x4 x5 i
      = Cert.Spec.node (fun f => x0 (ix3 (i 0 : Fin 8) (i 1 : Fin 10000) f)) (fun k f => x2 (ix2 k f)) (fun k => x3 (ix1 k))
          (fun o k => x4 (ix2 o k)) (fun o => x5 (ix1 o)) (i 2 : Fin 32) := by
  -- the composed index maps of the generated reads, as coordinates
  have e1 : ∀ (k : Fin 32) (f : Fin 11), lidx_main_v0 (lidx_main_v5 i k) f = ix3 (i 0 : Fin 8) (i 1 : Fin 10000) f := fun k f =>
    funext fun a => Fin.ext (by match a with | ⟨0, _⟩ => rfl | ⟨1, _⟩ => rfl | ⟨2, _⟩ => rfl)
  have e2 : ∀ (k : Fin 32) (f : Fin 11), ridx_main_v0 (lidx_main_v5 i k) f = ix2 k f := fun k f =>
    funext fun a => Fin.ext (by match a with | ⟨0, _⟩ => rfl | ⟨1, _⟩ => rfl)
  have e3 : ∀ k : Fin 32, idx_main_v1 (idx_main_v2 (lidx_main_v5 i k)) = ix1 k := fun k =>
    funext fun a => Fin.ext (by match a with | ⟨0, _⟩ => rfl)
  have e4 : ∀ k : Fin 32, ridx_main_v5 i k = ix2 (i 2 : Fin 32) k := fun k =>
    funext fun a => Fin.ext (by match a with | ⟨0, _⟩ => rfl | ⟨1, _⟩ => rfl)
  have e5 : idx_main_v6 (idx_main_v7 i) = ix1 (i 2 : Fin 32) :=
    funext fun a => Fin.ext (by match a with | ⟨0, _⟩ => rfl)
  simp only [val_main_v9_apply, val_main_v8_apply, val_main_v5_apply, val_main_v4_apply, val_main_v3_apply, val_main_v0_apply,
    val_main_v2_apply, val_main_v1_apply, val_main_v7_apply, val_main_v6_apply,
    val_main_call0_v0_apply, val_main_call0_cst_apply, val_main_call1_v0_apply, val_main_call1_cst_apply,
    Ideal.maximumf_def, Ideal.addf_def, Ideal.ofBits_def, e1, e2, e3, e4, e5]
  rfl

/-- The node stage at an index given by coordinates. -/
theorem ref_node_at (x0 : (⟨S8x10000x11, .f32⟩ : BufTy).Contents (Elt Ideal)) (x2 : (⟨S32x11, .f32⟩ : BufTy).Contents (Elt Ideal))
    (x3 : (⟨S32, .f32⟩ : BufTy).Contents (Elt Ideal)) (x4 : (⟨S32x32, .f32⟩ : BufTy).Contents (Elt Ideal))
    (x5 : (⟨S32, .f32⟩ : BufTy).Contents (Elt Ideal)) (b : Fin 8) (n : Fin 10000) (h : Fin 32) :
    val_main_v9 (F := Ideal) x0 x2 x3 x4 x5 (ix3 b n h)
      = Cert.Spec.node (fun f => x0 (ix3 b n f)) (fun k f => x2 (ix2 k f)) (fun k => x3 (ix1 k))
          (fun o k => x4 (ix2 o k)) (fun o => x5 (ix1 o)) h :=
  ref_node x0 x2 x3 x4 x5 (ix3 b n h)

/-- The joined array at an index given by coordinates: the first gathered array where the last coordinate is
    below 32, the second, 32 less, from there on. -/
theorem joined_apply (x0 : (⟨S8x10000x11, .f32⟩ : BufTy).Contents (Elt Ideal)) (x1 : (⟨S2x320000, .i32⟩ : BufTy).Contents (Elt Ideal))
    (x2 : (⟨S32x11, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (b : Fin 8) (e : Fin 320000) (f : Fin 64) :
    val_main_v28 (F := Ideal) x0 x1 x2 x3 x4 x5 (ix3 b e f)
      = Cert.Spec.joined (fun c => val_main_v18 (F := Ideal) x0 x1 x2 x3 x4 x5 (ix3 b e c))
          (fun c => val_main_v27 (F := Ideal) x0 x1 x2 x3 x4 x5 (ix3 b e c)) f := by
  unfold val_main_v28 Cert.Spec.joined
  by_cases hf : f.val < 32
  · rw [dif_pos hf]
    exact concatenate_pair_apply_left (t := S8x320000x64) (s₁ := S8x320000x32) (s₂ := S8x320000x32) 2 _ _ _ (ix3 b e f) rfl (ix3 b e (⟨f.val, hf⟩ : Fin 32))
      (fun a => match a with | ⟨0, _⟩ => rfl | ⟨1, _⟩ => rfl | ⟨2, _⟩ => rfl)
  · rw [dif_neg hf]
    have hf' : f.val - 32 < 32 := by have := f.isLt; omega
    exact concatenate_pair_apply_right (t := S8x320000x64) (s₁ := S8x320000x32) (s₂ := S8x320000x32) 2 _ _ _ (ix3 b e f) rfl rfl (ix3 b e (⟨f.val - 32, hf'⟩ : Fin 32))
      (fun a ha => match a, ha with | ⟨0, _⟩, _ => rfl | ⟨1, _⟩, _ => rfl | ⟨2, _⟩, ha => absurd rfl ha)
      (by show f.val - 32 + 32 = f.val; omega)

/-- The edge stage at an index: the edge network of the two gathered end points' hidden vectors. -/
theorem ref_edge (x0 : (⟨S8x10000x11, .f32⟩ : BufTy).Contents (Elt Ideal)) (x1 : (⟨S2x320000, .i32⟩ : BufTy).Contents (Elt Ideal))
    (x2 : (⟨S32x11, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x64, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal)) (i : S8x320000x32.Idx) :
    val_main_v38 (F := Ideal) x0 x1 x2 x3 x4 x5 x6 x7 x8 x9 i
      = Cert.Spec.edge (fun j => val_main_v18 (F := Ideal) x0 x1 x2 x3 x4 x5 (ix3 (i 0 : Fin 8) (i 1 : Fin 320000) j))
          (fun j => val_main_v27 (F := Ideal) x0 x1 x2 x3 x4 x5 (ix3 (i 0 : Fin 8) (i 1 : Fin 320000) j))
          (fun k f => x6 (ix2 k f)) (fun k => x7 (ix1 k)) (fun o k => x8 (ix2 o k)) (fun o => x9 (ix1 o)) (i 2 : Fin 32) := by
  -- the composed index maps of the generated reads, as coordinates
  have e1 : ∀ (k : Fin 32) (f : Fin 64), lidx_main_v29 (lidx_main_v34 i k) f = ix3 (n0 := 8) (n1 := 320000) (i 0) (i 1) f := fun k f =>
    funext fun a => Fin.ext (by match a with | ⟨0, _⟩ => rfl | ⟨1, _⟩ => rfl | ⟨2, _⟩ => rfl)
  have e2 : ∀ (k : Fin 32) (f : Fin 64), ridx_main_v29 (lidx_main_v34 i k) f = ix2 k f := fun k f =>
    funext fun a => Fin.ext (by match a with | ⟨0, _⟩ => rfl | ⟨1, _⟩ => rfl)
  have e3 : ∀ k : Fin 32, idx_main_v30 (idx_main_v31 (lidx_main_v34 i k)) = ix1 k := fun k =>
    funext fun a => Fin.ext (by match a with | ⟨0, _⟩ => rfl)
  have e4 : ∀ k : Fin 32, ridx_main_v34 i k = ix2 (i 2 : Fin 32) k := fun k =>
    funext fun a => Fin.ext (by match a with | ⟨0, _⟩ => rfl | ⟨1, _⟩ => rfl)
  have e5 : idx_main_v35 (idx_main_v36 i) = ix1 (i 2 : Fin 32) :=
    funext fun a => Fin.ext (by match a with | ⟨0, _⟩ => rfl)
  -- the first layer as one sum over the 64 joined coordinates
  refine Eq.trans ?_ (Cert.Spec.edge_joined _ _ _ _ _ _ _)
  simp only [val_main_v38_apply, val_main_v37_apply, val_main_v34_apply, val_main_v33_apply, val_main_v32_apply, val_main_v29_apply,
    val_main_v31_apply, val_main_v30_apply, val_main_v36_apply, val_main_v35_apply,
    val_main_call2_v0_apply, val_main_call2_cst_apply, val_main_call3_v0_apply, val_main_call3_cst_apply,
    Ideal.maximumf_def, Ideal.addf_def, Ideal.ofBits_def, e1, e2, e3, e4, e5, joined_apply x0 x1 x2 x3 x4 x5 (i 0) (i 1)]
  rfl

/-- The edge stage at an index given by coordinates. -/
theorem ref_edge_at (x0 : (⟨S8x10000x11, .f32⟩ : BufTy).Contents (Elt Ideal)) (x1 : (⟨S2x320000, .i32⟩ : BufTy).Contents (Elt Ideal))
    (x2 : (⟨S32x11, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x64, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal)) (b : Fin 8) (e : Fin 320000) (o : Fin 32) :
    val_main_v38 (F := Ideal) x0 x1 x2 x3 x4 x5 x6 x7 x8 x9 (ix3 b e o)
      = Cert.Spec.edge (fun j => val_main_v18 (F := Ideal) x0 x1 x2 x3 x4 x5 (ix3 b e j))
          (fun j => val_main_v27 (F := Ideal) x0 x1 x2 x3 x4 x5 (ix3 b e j))
          (fun k f => x6 (ix2 k f)) (fun k => x7 (ix1 k)) (fun o k => x8 (ix2 o k)) (fun o => x9 (ix1 o)) o :=
  ref_edge x0 x1 x2 x3 x4 x5 x6 x7 x8 x9 (ix3 b e o)

/-- The larger of the in-degree and one, at a vertex. -/
theorem degree_apply (x1 : (⟨S2x320000, .i32⟩ : BufTy).Contents (Elt Ideal)) (n : Fin 10000) :
    val_main_v61 (F := Ideal) x1 (ix1 n) = max (val_main_v59 (F := Ideal) x1 (ix1 n)) Cert.Spec.one := by
  rw [val_main_v61_apply, val_main_v60_apply, val_main_cst_9_apply]
  rfl

/-- The same, spread over the batch and the hidden units. -/
theorem degree_spread_apply (x1 : (⟨S2x320000, .i32⟩ : BufTy).Contents (Elt Ideal)) (b : Fin 8) (n : Fin 10000) (h : Fin 32) :
    val_main_v63 (F := Ideal) x1 (ix3 b n h) = max (val_main_v59 (F := Ideal) x1 (ix1 n)) Cert.Spec.one := by
  have e : idx_main_v62 (idx_main_v63 (ix3 b n h)) = ix1 n :=
    funext fun a => Fin.ext (by match a with | ⟨0, _⟩ => rfl)
  rw [val_main_v63_apply, val_main_v62_apply, e, degree_apply]

/-- The mean message at an index: the summed message divided by the larger of the in-degree and one. -/
theorem mean_apply (x0 : (⟨S8x10000x11, .f32⟩ : BufTy).Contents (Elt Ideal)) (x1 : (⟨S2x320000, .i32⟩ : BufTy).Contents (Elt Ideal))
    (x2 : (⟨S32x11, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x64, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal)) (b : Fin 8) (n : Fin 10000) (h : Fin 32) :
    val_main_v64 (F := Ideal) x0 x1 x2 x3 x4 x5 x6 x7 x8 x9 (ix3 b n h)
      = Ideal.div (val_main_v48 (F := Ideal) x0 x1 x2 x3 x4 x5 x6 x7 x8 x9 (ix3 b n h)) (max (val_main_v59 (F := Ideal) x1 (ix1 n)) Cert.Spec.one) := by
  rw [val_main_v64_apply, degree_spread_apply]
  rfl

/-- The read-out's first layer before its shift: the sum over the 32 hidden units. -/
theorem readout_sum_apply (x0 : (⟨S8x10000x11, .f32⟩ : BufTy).Contents (Elt Ideal)) (x1 : (⟨S2x320000, .i32⟩ : BufTy).Contents (Elt Ideal))
    (x2 : (⟨S32x11, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x64, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal)) (x10 : (⟨S1x32, .f32⟩ : BufTy).Contents (Elt Ideal)) (b : Fin 8) (n : Fin 10000) (o : Fin 1) :
    val_main_v65 (F := Ideal) x0 x1 x2 x3 x4 x5 x6 x7 x8 x9 x10 (ix3 b n o)
      = ∑ h : Fin 32, Ideal.div (val_main_v48 (F := Ideal) x0 x1 x2 x3 x4 x5 x6 x7 x8 x9 (ix3 b n h)) (max (val_main_v59 (F := Ideal) x1 (ix1 n)) Cert.Spec.one)
          * x10 (ix2 (0 : Fin 1) h) := by
  have e1 : ∀ h : Fin 32, lidx_main_v65 (ix3 b n o) h = ix3 b n h := fun h =>
    funext fun a => Fin.ext (by match a with | ⟨0, _⟩ => rfl | ⟨1, _⟩ => rfl | ⟨2, _⟩ => rfl)
  have ho : o.val = 0 := by have := o.isLt; omega
  have e2 : ∀ h : Fin 32, ridx_main_v65 (ix3 b n o) h = ix2 (0 : Fin 1) h := fun h =>
    funext fun a => Fin.ext (by match a with | ⟨0, _⟩ => exact ho | ⟨1, _⟩ => rfl)
  rw [val_main_v65_apply]
  refine Finset.sum_congr rfl fun h _ => ?_
  rw [e1, e2, mean_apply]

/-- The scaling factor's array of one entry, read as a scalar: its one entry. -/
theorem scale_apply (x12 : (⟨S1x1, .f32⟩ : BufTy).Contents (Elt Ideal)) (j : S_.Idx) :
    val_main_v70 (F := Ideal) x12 j = x12 (ix2 (0 : Fin 1) (0 : Fin 1)) := by
  unfold val_main_v70
  exact shapeCast_apply x12 _ j (ix2 (0 : Fin 1) (0 : Fin 1)) rfl

/-- The vertex stage at an index given by coordinates. -/
theorem ref_vertex_at (x0 : (⟨S8x10000x11, .f32⟩ : BufTy).Contents (Elt Ideal)) (x1 : (⟨S2x320000, .i32⟩ : BufTy).Contents (Elt Ideal))
    (x2 : (⟨S32x11, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x64, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal))
    (x10 : (⟨S1x32, .f32⟩ : BufTy).Contents (Elt Ideal)) (x11 : (⟨S1, .f32⟩ : BufTy).Contents (Elt Ideal))
    (x12 : (⟨S1x1, .f32⟩ : BufTy).Contents (Elt Ideal)) (x13 : (⟨S1, .f32⟩ : BufTy).Contents (Elt Ideal)) (b : Fin 8) (n : Fin 10000) (o : Fin 1) :
    val_main_v76 (F := Ideal) x0 x1 x2 x3 x4 x5 x6 x7 x8 x9 x10 x11 x12 x13 (ix3 b n o)
      = Cert.Spec.vertex (fun h => val_main_v48 (F := Ideal) x0 x1 x2 x3 x4 x5 x6 x7 x8 x9 (ix3 b n h))
          (val_main_v59 (F := Ideal) x1 (ix1 n))
          (fun h => x10 (ix2 (0 : Fin 1) h)) (x11 (ix1 (0 : Fin 1))) (x12 (ix2 (0 : Fin 1) (0 : Fin 1))) (x13 (ix1 (0 : Fin 1))) := by
  have e4 : idx_main_v66 (idx_main_v67 (ix3 b n o)) = ix1 (0 : Fin 1) :=
    funext fun a => Fin.ext (by match a with | ⟨0, _⟩ => rfl)
  have e5 : idx_main_v73 (idx_main_v74 (ix3 b n o)) = ix1 (0 : Fin 1) :=
    funext fun a => Fin.ext (by match a with | ⟨0, _⟩ => rfl)
  -- the mean as a quotient by the larger of the in-degree and one
  refine Eq.trans ?_ (Cert.Spec.vertex_quotient _ _ _ _ _ _)
  rw [val_main_v76_apply, val_main_v75_apply, val_main_v72_apply, val_main_v69_apply, val_main_v68_apply, readout_sum_apply,
    val_main_v67_apply, val_main_v66_apply, e4, val_main_v71_apply, scale_apply, val_main_v74_apply, val_main_v73_apply, e5,
    val_main_call4_v0_apply, val_main_call4_cst_apply, val_main_call5_v0_apply, val_main_call5_cst_apply]
  rfl

/-- The vertex stage at an index: the vertex read-out of the summed messages and the in-degree. -/
theorem ref_vertex (x0 : (⟨S8x10000x11, .f32⟩ : BufTy).Contents (Elt Ideal)) (x1 : (⟨S2x320000, .i32⟩ : BufTy).Contents (Elt Ideal))
    (x2 : (⟨S32x11, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x64, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal))
    (x10 : (⟨S1x32, .f32⟩ : BufTy).Contents (Elt Ideal)) (x11 : (⟨S1, .f32⟩ : BufTy).Contents (Elt Ideal))
    (x12 : (⟨S1x1, .f32⟩ : BufTy).Contents (Elt Ideal)) (x13 : (⟨S1, .f32⟩ : BufTy).Contents (Elt Ideal)) (i : S8x10000x1.Idx) :
    val_main_v76 (F := Ideal) x0 x1 x2 x3 x4 x5 x6 x7 x8 x9 x10 x11 x12 x13 i
      = Cert.Spec.vertex (fun h => val_main_v48 (F := Ideal) x0 x1 x2 x3 x4 x5 x6 x7 x8 x9 (ix3 (i 0 : Fin 8) (i 1 : Fin 10000) h))
          (val_main_v59 (F := Ideal) x1 (ix1 (i 1 : Fin 10000)))
          (fun h => x10 (ix2 (0 : Fin 1) h)) (x11 (ix1 (0 : Fin 1))) (x12 (ix2 (0 : Fin 1) (0 : Fin 1))) (x13 (ix1 (0 : Fin 1))) :=
  (congrArg (val_main_v76 (F := Ideal) x0 x1 x2 x3 x4 x5 x6 x7 x8 x9 x10 x11 x12 x13) (eq_ix3 i)).trans
    (ref_vertex_at x0 x1 x2 x3 x4 x5 x6 x7 x8 x9 x10 x11 x12 x13 (i 0) (i 1) (i 2))

end Cert.ReferenceIdeal.RefValue

end
-- ==== Proof.Bridge.lean ====
/-
  The reference program computes the model's result.

  Stage by stage the reference's values are the layers the kernel's result is written in: its hidden activations are
  the node network's (read at an index), its two gathers and its two scatter-adds are the same operations at the same
  index columns, its messages are the edge network's with the first layer as one product over the joined end points
  (the sum over 64 = 32 + 32 coordinates), its vertex read-outs are the vertex network's with the mean as a quotient by
  max (in-degree) 1, and its last operations are the graph read-out.
-/
import proofs.«139887_j78151224918081_2_alg».proof.Proof.KModel
import proofs.«139887_j78151224918081_2_alg».proof.Proof.RValue

set_option maxRecDepth 16384

open scoped BigOperators

noncomputable section

namespace Cert.Bridge

open Idealize.ShloMosaic Idealize.ShloMosaic.ValueIdx
open Cert.ReferenceIdeal.Read Cert.ReferenceIdeal.RefValue
open Cert.KernelIdeal.KFold Cert.KernelIdeal.KModel

variable (x0 : (⟨Cert.ReferenceIdeal.S8x10000x11, .f32⟩ : BufTy).Contents (Elt Ideal)) (x1 : (⟨Cert.ReferenceIdeal.S2x320000, .i32⟩ : BufTy).Contents (Elt Ideal)) (x2 : (⟨Cert.ReferenceIdeal.S32x11, .f32⟩ : BufTy).Contents (Elt Ideal)) (x3 : (⟨Cert.ReferenceIdeal.S32, .f32⟩ : BufTy).Contents (Elt Ideal))
    (x4 : (⟨Cert.ReferenceIdeal.S32x32, .f32⟩ : BufTy).Contents (Elt Ideal)) (x5 : (⟨Cert.ReferenceIdeal.S32, .f32⟩ : BufTy).Contents (Elt Ideal)) (x6 : (⟨Cert.ReferenceIdeal.S32x64, .f32⟩ : BufTy).Contents (Elt Ideal)) (x7 : (⟨Cert.ReferenceIdeal.S32, .f32⟩ : BufTy).Contents (Elt Ideal))
    (x8 : (⟨Cert.ReferenceIdeal.S32x32, .f32⟩ : BufTy).Contents (Elt Ideal)) (x9 : (⟨Cert.ReferenceIdeal.S32, .f32⟩ : BufTy).Contents (Elt Ideal)) (x10 : (⟨Cert.ReferenceIdeal.S1x32, .f32⟩ : BufTy).Contents (Elt Ideal)) (x11 : (⟨Cert.ReferenceIdeal.S1, .f32⟩ : BufTy).Contents (Elt Ideal))
    (x12 : (⟨Cert.ReferenceIdeal.S1x1, .f32⟩ : BufTy).Contents (Elt Ideal)) (x13 : (⟨Cert.ReferenceIdeal.S1, .f32⟩ : BufTy).Contents (Elt Ideal)) (x14 : (⟨Cert.ReferenceIdeal.S1x10000, .f32⟩ : BufTy).Contents (Elt Ideal)) (x15 : (⟨Cert.ReferenceIdeal.S1, .f32⟩ : BufTy).Contents (Elt Ideal))

/-- The reference's hidden activations are the node network's. -/
theorem hidden_eq : val_main_v9 (F := Ideal) x0 x2 x3 x4 x5 = hidden x0 x2 x3 x4 x5 :=
  funext fun i => ref_node x0 x2 x3 x4 x5 i

/-- The reference's index columns are the same operations of the edge list. -/
theorem src_eq : val_main_v17 (F := Ideal) x1 = srcCol x1 := rfl
theorem dst_eq : val_main_v26 (F := Ideal) x1 = dstCol x1 := rfl
theorem dst_eq' : val_main_v47 (F := Ideal) x1 = dstCol x1 := rfl
theorem dst_eq'' : val_main_v57 (F := Ideal) x1 = dstCol x1 := rfl

/-- Its two gathers are the rows of the hidden activations at the two columns. -/
theorem src_rows_eq : val_main_v18 (F := Ideal) x0 x1 x2 x3 x4 x5 = gatherRows (hidden x0 x2 x3 x4 x5) (srcCol x1) := by
  rw [← hidden_eq, ← src_eq]; rfl
theorem dst_rows_eq : val_main_v27 (F := Ideal) x0 x1 x2 x3 x4 x5 = gatherRows (hidden x0 x2 x3 x4 x5) (dstCol x1) := by
  rw [← hidden_eq, ← dst_eq]; rfl

/-- Its messages are the edge network's of those rows. -/
theorem messages_eq : val_main_v38 (F := Ideal) x0 x1 x2 x3 x4 x5 x6 x7 x8 x9 = messages (hidden x0 x2 x3 x4 x5) x1 x6 x7 x8 x9 := by
  funext i
  refine (ref_edge x0 x1 x2 x3 x4 x5 x6 x7 x8 x9 i).trans ?_
  rw [src_rows_eq, dst_rows_eq]
  rfl

/-- Its summed messages and in-degrees are the same scatter-adds. -/
theorem sums_eq : val_main_v48 (F := Ideal) x0 x1 x2 x3 x4 x5 x6 x7 x8 x9
    = sumMessages (dstCol x1) (messages (hidden x0 x2 x3 x4 x5) x1 x6 x7 x8 x9) := by
  rw [← messages_eq, ← dst_eq']; rfl
theorem degree_eq : val_main_v59 (F := Ideal) x1 = inDegree (dstCol x1) := by
  rw [← dst_eq'']; rfl

/-- Its vertex read-outs are the vertex network's. -/
theorem readouts_eq : val_main_v76 (F := Ideal) x0 x1 x2 x3 x4 x5 x6 x7 x8 x9 x10 x11 x12 x13
    = readouts (sumMessages (dstCol x1) (messages (hidden x0 x2 x3 x4 x5) x1 x6 x7 x8 x9)) x1 x10 x11 x12 x13 := by
  funext i
  refine (ref_vertex x0 x1 x2 x3 x4 x5 x6 x7 x8 x9 x10 x11 x12 x13 i).trans ?_
  rw [sums_eq, degree_eq]
  rfl

/-- Its result is the model's. -/
theorem result_eq : val_main_v88 (F := Ideal) x0 x1 x2 x3 x4 x5 x6 x7 x8 x9 x10 x11 x12 x13 x14 x15
    = result x0 x1 x2 x3 x4 x5 x6 x7 x8 x9 x10 x11 x12 x13 x14 x15 := by
  unfold result
  rw [← readouts_eq]
  rfl

end Cert.Bridge

end
-- ==== Proof.lean ====
/-
  The kernel and the reference compute the same message-passing model.

  Three kernel regions — the node network, the edge network, the vertex read-out — sit among host operations that
  transpose and split the weights, gather the hidden activations at the edges' end points, scatter-add the messages over
  the destination vertices and apply the graph read-out. On the extended reals the kernel's result and the
  reference's are one function of the arguments: the first edge layer as two products over 32 coordinates is the one
  product over the 64 joined coordinates, and the mean as a product with 1 / max (in-degree) 1 is the quotient by
  max (in-degree) 1; both laws hold at infinities, so the inputs' finiteness is not used. The frames are the
  generated ones; the idealization rewrote nothing, so it preserves the kernel trivially.
-/
import proofs.«139887_j78151224918081_2_alg».proof.Defs
import proofs.«139887_j78151224918081_2_alg».proof.Proof.Gen.Kernel
import proofs.«139887_j78151224918081_2_alg».proof.Proof.Gen.Kernel.Skeleton
import proofs.«139887_j78151224918081_2_alg».proof.Proof.Gen.Kernel.Launch
import proofs.«139887_j78151224918081_2_alg».proof.Proof.Gen.Kernel.Points
import proofs.«139887_j78151224918081_2_alg».proof.Proof.Gen.Kernel.Frame
import proofs.«139887_j78151224918081_2_alg».proof.Proof.Gen.KernelIdeal
import proofs.«139887_j78151224918081_2_alg».proof.Proof.Gen.KernelIdeal.Skeleton
import proofs.«139887_j78151224918081_2_alg».proof.Proof.Gen.KernelIdeal.Launch
import proofs.«139887_j78151224918081_2_alg».proof.Proof.Gen.KernelIdeal.Points
import proofs.«139887_j78151224918081_2_alg».proof.Proof.Gen.KernelIdeal.Frame
import proofs.«139887_j78151224918081_2_alg».proof.Proof.Gen.ReferenceIdeal
import proofs.«139887_j78151224918081_2_alg».proof.Proof.Gen.ReferenceIdeal.Run
import proofs.«139887_j78151224918081_2_alg».proof.Proof.Gen.ReferenceIdeal.Read
import proofs.«139887_j78151224918081_2_alg».proof.Proof.Gen.Pre_finite_inputs
import proofs.«139887_j78151224918081_2_alg».proof.Proof.KRun
import proofs.«139887_j78151224918081_2_alg».proof.Proof.KModel
import proofs.«139887_j78151224918081_2_alg».proof.Proof.Bridge
import Idealize.ShloMosaic.Adequacy
import Idealize.ShloMosaic.Init

set_option maxRecDepth 16384

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernel_ideal : @Cert.frame_KernelIdeal Cert.KernelIdeal.Gen.facts Cert.Pre_finite_inputs.Gen.facts :=
  fun m ρ _ => Cert.KernelIdeal.Gen.frame m ρ

/-- The reference's frame: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the model's result of the (agreeing) arguments in their result buffers. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.KModel.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ?_) (Cert.KernelIdeal.KRun.run_all (F := Ideal) m ρ)
    exact ⟨(h c _ (Cert.KernelIdeal.Gen.mem_uc Cert.KernelIdeal.main_v72 (by decide))).trans (Cert.KernelIdeal.KModel.kernel_value m ρ c),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c),
      (h c _ (Cert.KernelIdeal.Gen.mem_uc Cert.KernelIdeal.main_arg9 (by decide))).trans (Cert.KernelIdeal.Gen.W7_main_arg9 m ρ c),
      (h c _ (Cert.KernelIdeal.Gen.mem_uc Cert.KernelIdeal.main_arg10 (by decide))).trans (Cert.KernelIdeal.Gen.W7_main_arg10 m ρ c),
      (h c _ (Cert.KernelIdeal.Gen.mem_uc Cert.KernelIdeal.main_arg11 (by decide))).trans (Cert.KernelIdeal.Gen.W7_main_arg11 m ρ c),
      (h c _ (Cert.KernelIdeal.Gen.mem_uc Cert.KernelIdeal.main_arg12 (by decide))).trans (Cert.KernelIdeal.Gen.W7_main_arg12 m ρ c),
      (h c _ (Cert.KernelIdeal.Gen.mem_uc Cert.KernelIdeal.main_arg13 (by decide))).trans (Cert.KernelIdeal.Gen.W7_main_arg13 m ρ c),
      (h c _ (Cert.KernelIdeal.Gen.mem_uc Cert.KernelIdeal.main_arg14 (by decide))).trans (Cert.KernelIdeal.Gen.W7_main_arg14 m ρ c),
      (h c _ (Cert.KernelIdeal.Gen.mem_uc Cert.KernelIdeal.main_arg15 (by decide))).trans (Cert.KernelIdeal.Gen.W7_main_arg15 m ρ c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v88_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    exact Cert.Bridge.result_eq _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
